-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x9 : Shape := ⟨2, ![100000, 9]⟩
abbrev S2x1600000 : Shape := ⟨2, ![2, 1600000]⟩
abbrev S9x64 : Shape := ⟨2, ![9, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x9 : S_.BroadcastsInDim S100000x9 (![] : Fin 0 → Fin S100000x9.rank)
  reducesTo_S100000x9_S_d0_1 : S100000x9.ReducesTo [0, 1] S_
  h_S_ : 0 < S_.numel
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S32 .f32) (main_arg7 : FVec F S64x32 .f32) (main_v13 : IVec S_ 1) (main_v16 : IVec S9x64 1) : IVec S_ 1 :=
  let main_c_5 : IVec S_ 1 := constantI S_ 1 1#1
  let main_v17 : IVec S_ 1 := (fun x v => Host.reduce IntOp.andi x v reducesTo_S9x64_S_d0_1 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  main_v33

def fn {F : FTy → Type} [FloatOps F] (main_arg0 : FVec F S100000x9 .f32) (main_arg1 : IVec S2x1600000 32) (main_arg2 : FVec F S9x64 .f32) (main_arg3 : FVec F S64 .f32) (main_arg4 : FVec F S9x64 .f32) (main_arg5 : FVec F S64x32 .f32) (main_arg6 : FVec F S32 .f32) (main_arg7 : FVec F S64x32 .f32) : IVec S_ 1 :=
  let main_v0 : FVec F S100000x9 .f32 := Host.absf main_arg0
  let main_cst : FVec F S_ .f32 := constant S_ .f32 0x7F800000#32
  let main_v1 : FVec F S100000x9 .f32 := broadcastInDim S100000x9 ![] bcast_S_S100000x9 main_cst
  let main_v2 : IVec S100000x9 1 := cmpf .olt main_v0 main_v1
  let main_c : IVec S_ 1 := constantI S_ 1 1#1
  let main_v3 : IVec S_ 1 := (fun x v => Host.reduce IntOp.andi x v reducesTo_S100000x9_S_d0_1 h_S_) main_v2 main_c
  let main_v4 : FVec F S9x64 .f32 := Host.absf main_arg2
  let main_cst_0 : FVec F S_ .f32 := constant S_ .f32 0x7F800000#32
  let main_v5 : FVec F S9x64 .f32 := broadcastInDim S9x64 ![] bcast_S_S9x64 main_cst_0
  let main_v6 : IVec S9x64 1 := cmpf .olt main_v4 main_v5
  let main_c_1 : IVec S_ 1 := constantI S_ 1 1#1
  let main_v7 : IVec S_ 1 := (fun x v => Host.reduce IntOp.andi x v reducesTo_S9x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S9x64 .f32 := Host.absf main_arg4
  let main_cst_4 : FVec F S_ .f32 := constant S_ .f32 0x7F800000#32
  let main_v15 : FVec F S9x64 .f32 := broadcastInDim S9x64 ![] bcast_S_S9x64 main_cst_4
  let main_v16 : IVec S9x64 1 := cmpf .olt main_v14 main_v15
  fn_part1 (F := F) main_arg5 main_arg6 main_arg7 main_v13 main_v16
-- ==== Kernel.lean ====
abbrev S100000x9 : Shape := ⟨2, ![100000, 9]⟩
abbrev S2x1600000 : Shape := ⟨2, ![2, 1600000]⟩
abbrev S9x64 : Shape := ⟨2, ![9, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x9 : Shape := ⟨2, ![1600000, 9]⟩
abbrev S1x64 : Shape := ⟨2, ![1, 64]⟩
abbrev S100000x32 : Shape := ⟨2, ![100000, 32]⟩
abbrev S5000x9 : Shape := ⟨2, ![5000, 9]⟩
abbrev S5000x1 : Shape := ⟨2, ![5000, 1]⟩
abbrev S5000x32 : Shape := ⟨2, ![5000, 32]⟩
abbrev S5000x64 : Shape := ⟨2, ![5000, 64]⟩
abbrev S1600000x32 : Shape := ⟨2, ![1600000, 32]⟩
abbrev S1x32 : Shape := ⟨2, ![1, 32]⟩

abbrev nBuf : Space → Nat
  | .hbm => 56
  | .vmem => 24
  | .smem => 0
  | _ => 0

abbrev bufTy : (tb : Table) → Fin (tcTables nBuf tb) → BufTy
  | .hbm, ⟨0, _⟩ => ⟨S100000x9, .f32⟩
  | .hbm, ⟨1, _⟩ => ⟨S2x1600000, .i32⟩
  | .hbm, ⟨2, _⟩ => ⟨S9x64, .f32⟩
  | .hbm, ⟨3, _⟩ => ⟨S64, .f32⟩
  | .hbm, ⟨4, _⟩ => ⟨S9x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x9, .f32⟩
  | .hbm, ⟨34, _⟩ => ⟨S_, .f32⟩
  | .hbm, ⟨35, _⟩ => ⟨S100000x9, .f32⟩
  | .hbm, ⟨36, _⟩ => ⟨S1600000x1, .i32⟩
  | .hbm, ⟨37, _⟩ => ⟨S100000x9, .f32⟩
  | .hbm, ⟨38, _⟩ => ⟨S1x64, .f32⟩
  | .hbm, ⟨39, _⟩ => ⟨S100000x32, .f32⟩
  | .hbm, ⟨40, _⟩ => ⟨S100000x32, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x32, .f32⟩
  | .hbm, ⟨50, _⟩ => ⟨S_, .f32⟩
  | .hbm, ⟨51, _⟩ => ⟨S100000x32, .f32⟩
  | .hbm, ⟨52, _⟩ => ⟨S1600000x1, .i32⟩
  | .hbm, ⟨53, _⟩ => ⟨S100000x32, .f32⟩
  | .hbm, ⟨54, _⟩ => ⟨S1x32, .f32⟩
  | .hbm, ⟨55, _⟩ => ⟨S100000x32, .f32⟩
  | .local _ .vmem, ⟨0, _⟩ => ⟨S5000x9, .f32⟩
  | .local _ .vmem, ⟨1, _⟩ => ⟨S5000x9, .f32⟩
  | .local _ .vmem, ⟨2, _⟩ => ⟨S5000x1, .f32⟩
  | .local _ .vmem, ⟨3, _⟩ => ⟨S5000x1, .f32⟩
  | .local _ .vmem, ⟨4, _⟩ => ⟨S5000x9, .f32⟩
  | .local _ .vmem, ⟨5, _⟩ => ⟨S5000x9, .f32⟩
  | .local _ .vmem, ⟨6, _⟩ => ⟨S9x64, .f32⟩
  | .local _ .vmem, ⟨7, _⟩ => ⟨S1x64, .f32⟩
  | .local _ .vmem, ⟨8, _⟩ => ⟨S9x64, .f32⟩
  | .local _ .vmem, ⟨9, _⟩ => ⟨S64x32, .f32⟩
  | .local _ .vmem, ⟨10, _⟩ => ⟨S64x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x1, .f32⟩
  | .local _ .vmem, ⟨18, _⟩ => ⟨S5000x1, .f32⟩
  | .local _ .vmem, ⟨19, _⟩ => ⟨S5000x32, .f32⟩
  | .local _ .vmem, ⟨20, _⟩ => ⟨S5000x32, .f32⟩
  | .local _ .vmem, ⟨21, _⟩ => ⟨S1x32, .f32⟩
  | .local _ .vmem, ⟨22, _⟩ => ⟨S5000x32, .f32⟩
  | .local _ .vmem, ⟨23, _⟩ => ⟨S5000x32, .f32⟩
  | _, _ => ⟨S100000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x9 : S_.BroadcastsInDim S100000x9 (![] : Fin 0 → Fin S100000x9.rank)
  shapeCasts_S64_S1x64 : S64.ShapeCasts S1x64
  inb_S5000x9_S5000x9_0_0 : ∀ a, (![0, 0] : Fin 2 → Nat) a + S5000x9.size a ≤ S5000x9.size a
  h_S5000x9 : 0 < S5000x9.numel
  shapeCasts_S5000x9_S5000x9 : S5000x9.ShapeCasts S5000x9
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x9 : S5000x1.Broadcasts S5000x9
  bitsLt_bf16_f32 : FTy.bits .bf16 < FTy.bits .f32
  inb_S9x64_S9x64_0_0 : ∀ a, (![0, 0] : Fin 2 → Nat) a + S9x64.size a ≤ S9x64.size a
  h_S9x64 : 0 < S9x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S100000_S1600000x1_S1600000_n_0_0_1_wf : ScatterDims.WF S100000 S1600000x1 S1600000 [] [0] [0] 1
  gather_S100000x9_S1600000x1_S1600000x9_1_0_n_n_0_1_19_wf : GatherDims.WF S100000x9 S1600000x1 S1600000x9 [1] [0] [] [0] [] 1 ![1, 9]
  scatter_S100000x9_S1600000x1_S1600000x9_1_0_0_1_wf : ScatterDims.WF S100000x9 S1600000x1 S1600000x9 [1] [0] [0] 1
  dot_S5000x9_S9x64_S5000x64_1_0_0_1_n_n_wf : DotDims.WF S5000x9 S9x64 S5000x64 [1] [0] [0] [1] [] []
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x9.size a ≤ S100000x9.size a
  hwx0_0 : ∀ i : grid0.Coords, EltTy.bits .f32 = 32 ∨ (Rect.block (s := S100000x9) S5000x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x9.size a ≤ S100000x9.size a
  hwx0_2 : ∀ i : grid0.Coords, EltTy.bits .f32 = 32 ∨ (Rect.block (s := S100000x9) S5000x9.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x64.size a ≤ S9x64.size a
  hwx0_3 : ∀ i : grid0.Coords, EltTy.bits .f32 = 32 ∨ (Rect.block (s := S9x64) S9x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S9x64.size a ≤ S9x64.size a
  hwx0_5 : ∀ i : grid0.Coords, EltTy.bits .f32 = 32 ∨ (Rect.block (s := S9x64) S9x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .f32 = 32 ∨ (Rect.block (s := S64x32) S64x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x32.size a ≤ S100000x32.size a
  hwx0_8 : ∀ i : grid0.Coords, EltTy.bits .f32 = 32 ∨ (Rect.block (s := S100000x32) S5000x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x32.size a ≤ S100000x32.size a
  hwx0_9 : ∀ i : grid0.Coords, EltTy.bits .f32 = 32 ∨ (Rect.block (s := S100000x32) S5000x32.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x9_S1600000x1_S1600000x9_1_0_n_n_0_1_19 : GatherDims S100000x9 S1600000x1 S1600000x9 where
  offsetDims := [1]
  collapsedSliceDims := [0]
  operandBatchingDims := []
  startIndicesBatchingDims := []
  startIndexMap := [0]
  indexVectorDim := 1
  sliceSizes := ![1, 9]
  wf := gather_S100000x9_S1600000x1_S1600000x9_1_0_n_n_0_1_19_wf
def scatter_S100000x9_S1600000x1_S1600000x9_1_0_0_1 : ScatterDims S100000x9 S1600000x1 S1600000x9 where
  updateWindowDims := [1]
  insertedWindowDims := [0]
  scatterDimsToOperandDims := [0]
  indexVectorDim := 1
  wf := scatter_S100000x9_S1600000x1_S1600000x9_1_0_0_1_wf
def dot_S5000x9_S9x64_S5000x64_1_0_0_1_n_n : DotDims S5000x9 S9x64 S5000x64 where
  lhsContracting := [1]
  rhsContracting := [0]
  lhsNonContracting := [0]
  rhsNonContracting := [1]
  lhsBatch := []
  rhsBatch := []
  wf := dot_S5000x9_S9x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_v22) S5000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x9.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S9x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S9x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24_0) S5000x32.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v24_1) S5000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v34) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24_1) S5000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x9 : Shape := ⟨2, ![100000, 9]⟩
abbrev S2x1600000 : Shape := ⟨2, ![2, 1600000]⟩
abbrev S9x64 : Shape := ⟨2, ![9, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x9 : Shape := ⟨2, ![1600000, 9]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x32 : Shape := ⟨2, ![100000, 32]⟩
abbrev S1x32 : Shape := ⟨2, ![1, 32]⟩

abbrev nBuf : Space → Nat
  | .hbm => 81
  | .vmem => 0
  | .smem => 0
  | _ => 0

abbrev bufTy : (tb : Table) → Fin (tcTables nBuf tb) → BufTy
  | .hbm, ⟨0, _⟩ => ⟨S100000x9, .f32⟩
  | .hbm, ⟨1, _⟩ => ⟨S2x1600000, .i32⟩
  | .hbm, ⟨2, _⟩ => ⟨S9x64, .f32⟩
  | .hbm, ⟨3, _⟩ => ⟨S64, .f32⟩
  | .hbm, ⟨4, _⟩ => ⟨S9x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x9, .f32⟩
  | .hbm, ⟨21, _⟩ => ⟨S_, .f32⟩
  | .hbm, ⟨22, _⟩ => ⟨S100000x9, .f32⟩
  | .hbm, ⟨23, _⟩ => ⟨S1600000x1, .i32⟩
  | .hbm, ⟨24, _⟩ => ⟨S100000x9, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x9, .f32⟩
  | .hbm, ⟨36, _⟩ => ⟨S100000x9, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S1x1600000, .i32⟩
  | .hbm, ⟨47, _⟩ => ⟨S1600000, .i32⟩
  | .hbm, ⟨48, _⟩ => ⟨S1x1600000, .i32⟩
  | .hbm, ⟨49, _⟩ => ⟨S1600000, .i32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S100000x32, .f32⟩
  | .hbm, ⟨76, _⟩ => ⟨S1x32, .f32⟩
  | .hbm, ⟨77, _⟩ => ⟨S100000x32, .f32⟩
  | .hbm, ⟨78, _⟩ => ⟨S100000x32, .f32⟩
  | .hbm, ⟨79, _⟩ => ⟨S100000x32, .f32⟩
  | .hbm, ⟨80, _⟩ => ⟨S100000x32, .f32⟩
  | _, _ => ⟨S100000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x9 : S_.BroadcastsInDim S100000x9 (![] : Fin 0 → Fin S100000x9.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x9_0_1 : S100000x1.BroadcastsInDim S100000x9 (![0, 1] : Fin 2 → Fin S100000x9.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x9_S1600000x1_S1600000x9_1_0_n_n_0_1_19_wf : GatherDims.WF S100000x9 S1600000x1 S1600000x9 [1] [0] [] [0] [] 1 ![1, 9]
  scatter_S100000x9_S1600000x1_S1600000x9_1_0_0_1_wf : ScatterDims.WF S100000x9 S1600000x1 S1600000x9 [1] [0] [0] 1
  scatter_S100000_S1600000x1_S1600000_n_0_0_1_wf : ScatterDims.WF S100000 S1600000x1 S1600000 [] [0] [0] 1
  dot_S100000x9_S9x64_S100000x64_1_0_0_1_n_n_wf : DotDims.WF S100000x9 S9x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []

variable [Facts₀]

def gather_S100000x9_S1600000x1_S1600000x9_1_0_n_n_0_1_19 : GatherDims S100000x9 S1600000x1 S1600000x9 where
  offsetDims := [1]
  collapsedSliceDims := [0]
  operandBatchingDims := []
  startIndicesBatchingDims := []
  startIndexMap := [0]
  indexVectorDim := 1
  sliceSizes := ![1, 9]
  wf := gather_S100000x9_S1600000x1_S1600000x9_1_0_n_n_0_1_19_wf
def scatter_S100000x9_S1600000x1_S1600000x9_1_0_0_1 : ScatterDims S100000x9 S1600000x1 S1600000x9 where
  updateWindowDims := [1]
  insertedWindowDims := [0]
  scatterDimsToOperandDims := [0]
  indexVectorDim := 1
  wf := scatter_S100000x9_S1600000x1_S1600000x9_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x9_S9x64_S100000x64_1_0_0_1_n_n : DotDims S100000x9 S9x64 S100000x64 where
  lhsContracting := [1]
  rhsContracting := [0]
  lhsNonContracting := [0]
  rhsNonContracting := [1]
  lhsBatch := []
  rhsBatch := []
  wf := dot_S100000x9_S9x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.LibRealEntries.lean ====
/-
  Extended reals that are real numbers.

  At exact arithmetic a float is an extended real. Distributing a factor over a difference, or a difference over a sum,
  is sound only where no infinity meets its opposite, so a value proof that rearranges such terms first shows that the
  numbers involved are images of real numbers. The images of the reals are closed under sums, products, differences,
  maxima, choices and finite sums; and on them a weighted sum of differences is the difference of the weighted sums.
-/
import Mathlib.Data.EReal.Operations
import Mathlib.Algebra.BigOperators.Ring.Finset

noncomputable section

namespace RealEntries

/-- An extended real that is the image of a real number. -/
def IsR (x : EReal) : Prop := ∃ r : ℝ, x = (r : EReal)

theorem isR_coe (r : ℝ) : IsR (r : EReal) := ⟨r, rfl⟩
theorem isR_zero : IsR 0 := ⟨0, EReal.coe_zero.symm⟩
theorem isR_one : IsR 1 := ⟨1, EReal.coe_one.symm⟩

theorem IsR.add {x y : EReal} (hx : IsR x) (hy : IsR y) : IsR (x + y) := by
  obtain ⟨a, rfl⟩ := hx; obtain ⟨b, rfl⟩ := hy
  exact ⟨a + b, (EReal.coe_add a b).symm⟩

theorem IsR.mul {x y : EReal} (hx : IsR x) (hy : IsR y) : IsR (x * y) := by
  obtain ⟨a, rfl⟩ := hx; obtain ⟨b, rfl⟩ := hy
  exact ⟨a * b, (EReal.coe_mul a b).symm⟩

theorem IsR.sub {x y : EReal} (hx : IsR x) (hy : IsR y) : IsR (x - y) := by
  obtain ⟨a, rfl⟩ := hx; obtain ⟨b, rfl⟩ := hy
  exact ⟨a - b, (EReal.coe_sub a b).symm⟩

theorem IsR.max {x y : EReal} (hx : IsR x) (hy : IsR y) : IsR (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem IsR.ite {p : Prop} [Decidable p] {x y : EReal} (hx : IsR x) (hy : IsR y) : IsR (if p then x else y) := by
  split
  · exact hx
  · exact hy

theorem IsR.sum {ι : Type*} (s : Finset ι) (f : ι → EReal) (h : ∀ i ∈ s, IsR (f i)) : IsR (∑ i ∈ s, f i) := by
  classical
  induction s using Finset.induction_on with
  | empty => rw [Finset.sum_empty]; exact isR_zero
  | insert a s ha ih =>
    rw [Finset.sum_insert ha]
    exact (h a (Finset.mem_insert_self a s)).add (ih fun i hi => h i (Finset.mem_insert_of_mem hi))

/-- A finite sum of images of reals is the image of the sum. -/
theorem coe_sum {ι : Type*} (s : Finset ι) (f : ι → ℝ) : ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- On real entries, a weighted sum of differences is the difference of the two weighted sums. -/
theorem sum_sub_mul {ι : Type*} [Fintype ι] (a b w : ι → EReal) (ha : ∀ k, IsR (a k)) (hb : ∀ k, IsR (b k))
    (hw : ∀ k, IsR (w k)) : ∑ k, (a k - b k) * w k = ∑ k, a k * w k - ∑ k, b k * w k := by
  choose a' ha' using ha
  choose b' hb' using hb
  choose w' hw' using hw
  simp only [ha', hb', hw', ← EReal.coe_sub, ← EReal.coe_mul, coe_sum]
  rw [← Finset.sum_sub_distrib]
  congr 1
  exact Finset.sum_congr rfl fun k _ => sub_mul _ _ _

end RealEntries

end
-- ==== Proof.LibMeanProject.lean ====
/-
  The algebra that joins the two programs, on the extended reals.

  One program averages the gathered neighbour rows first and multiplies by the weight matrix afterwards; the other
  multiplies every node's row by the weight matrix first, sums the gathered products and scales by the reciprocal of the
  clamped degree. The degree clamped below at 1 is at least 1, so dividing by it is multiplying by a REAL factor in [0, 1]
  (the factor 0 when the degree is +∞). With real rows and real weights both sides are then finite sums of reals, and the
  identity is the interchange of two finite sums.
-/
import Idealize.ShloMosaic.PureOps.Ideal
import proofs.«154276_j32787780338275_2_alg».proof.Proof.LibRealEntries

noncomputable section

namespace LibMeanProject

open Idealize.ShloMosaic RealEntries

/-- Division by an extended real that is at least 1 is multiplication by a real factor. -/
theorem div_ge_one (c : EReal) (hc : 1 ≤ c) : ∃ r : ℝ, ∀ x : EReal, Ideal.div x c = x * (r : EReal) := by
  have hne : c ≠ 0 := ne_of_gt (lt_of_lt_of_le zero_lt_one hc)
  induction c using EReal.rec with
  | bot => exact absurd (lt_of_lt_of_le zero_lt_one hc) not_lt_bot
  | top => exact ⟨0, fun x => by unfold Ideal.div; rw [if_neg hne, EReal.inv_top, EReal.coe_zero]⟩
  | coe y => exact ⟨y⁻¹, fun x => by unfold Ideal.div; rw [if_neg hne, ← EReal.coe_inv]⟩

theorem ite_coe (p : Prop) [Decidable p] (x : ℝ) :
    (if p then ((x : ℝ) : EReal) else 0) = (((if p then x else 0) : ℝ) : EReal) := by
  split
  · rfl
  · exact EReal.coe_zero.symm

/-- MEAN THEN PROJECT = PROJECT, SUM, THEN SCALE. For real rows `a e`, real weights `w`, a selection `δ` of the edges
    and a divisor `c ≥ 1`:  Σ_k ((Σ_{e ∈ δ} a e k) / c) · w k  =  (Σ_{e ∈ δ} Σ_k a e k · w k) · (1 / c). -/
theorem mean_then_project {E K : Type*} [Fintype E] [Fintype K] (δ : E → Prop) [DecidablePred δ]
    (a : E → K → EReal) (w : K → EReal) (c : EReal) (ha : ∀ e k, IsR (a e k)) (hw : ∀ k, IsR (w k)) (hc : 1 ≤ c) :
    ∑ k, Ideal.div (∑ e, if δ e then a e k else 0) c * w k
      = (∑ e, if δ e then ∑ k, a e k * w k else 0) * Ideal.div 1 c := by
  obtain ⟨r, hr⟩ := div_ge_one c hc
  choose a' ha' using ha
  choose w' hw' using hw
  simp only [hr, one_mul, ha', hw', ← EReal.coe_mul, ite_coe, coe_sum]
  refine congrArg _ ?_
  simp only [Finset.sum_mul, ite_mul, zero_mul]
  rw [Finset.sum_comm]
  refine Finset.sum_congr rfl fun e _ => ?_
  by_cases h : δ e
  · simp only [if_pos h]
    exact Finset.sum_congr rfl fun k _ => by ring
  · simp only [if_neg h, Finset.sum_const_zero]

end LibMeanProject

end
-- ==== Proof.LibMeanForms.lean ====
/-
  The neighbourhood mean, written two ways.

  One program scales the neighbour sum by the reciprocal of the clamped degree, A[r,c] · (1 / max(g[r], 1)); the other
  divides by it, A[r,c] / max(g[r], 1). On the extended reals the quotient x / y is x · y⁻¹ whenever y ≠ 0, and
  max(g, 1) ≥ 1 is never zero, whatever g is (an infinity included). So both are A[r,c] · (max(g[r], 1))⁻¹, with no
  finiteness assumed of A or g. The degree enters through a vector repeated along the rows of the matrix:
  a [n] vector laid out as [n, 1] and broadcast to [n, c] has entry (r, c) equal to the vector's entry r.
-/
import Idealize.ShloMosaic.PureOps.Ideal.Laws
import Idealize.ShloMosaic.PureOps.IdealRules
import Idealize.ShloMosaic.Lib.Pipeline.Value
import Idealize.ShloMosaic.Lib.ValueIdx

noncomputable section

namespace LibMeanForms

open Idealize.ShloMosaic Idealize.ShloMosaic.ValueIdx

/-- The single-precision word 0x3F800000 denotes the real number 1. -/
theorem one_f32 : Ideal.ofBits .f32 0x3F800000#32 = 1 := IdealRules.sign_bit.ideal_onePat .f32

/-- On the extended reals, n · (1 / max(g, 1)) = n / max(g, 1): the divisor is at least 1, hence not zero, and a
    quotient by a nonzero divisor is the product with its inverse. -/
theorem mean_scalar (n g : EReal) : n * Ideal.div 1 (max g 1) = Ideal.div n (max g 1) := by
  have hpos : (0 : EReal) < max g 1 := lt_of_lt_of_le zero_lt_one (le_max_right g 1)
  have hne : max g 1 ≠ 0 := ne_of_gt hpos
  unfold Ideal.div
  rw [if_neg hne, if_neg hne, one_mul]

/-- An [n] vector laid out as a column [n, 1] and repeated across [n, c], at any entry: the vector at the entry's row. -/
theorem rows_apply {α : Type} {n c : ℕ} (hn : n ≠ 1)
    (h1 : (⟨1, ![n]⟩ : Shape).BroadcastsInDim ⟨2, ![n, 1]⟩ ![0]) (h2 : (⟨2, ![n, 1]⟩ : Shape).BroadcastsInDim ⟨2, ![n, c]⟩ ![0, 1])
    (y : (⟨1, ![n]⟩ : Shape).Idx → α) (i : (⟨2, ![n, c]⟩ : Shape).Idx) :
    broadcastInDim ⟨2, ![n, c]⟩ ![0, 1] h2 (broadcastInDim ⟨2, ![n, 1]⟩ ![0] h1 y) i = y (ix1 (n := n) (i 0)) := by
  refine (broadcastInDim_apply ![0, 1] h2 _ i (ix2 (n0 := n) (n1 := 1) (i 0) (0 : Fin 1)) (fun a => ?_)).trans
    (broadcastInDim_apply ![0] h1 y _ (ix1 (n := n) (i 0)) (fun a => ?_))
  · match a with
    | ⟨0, _⟩ => show (i 0).val = if n = 1 then 0 else (i 0).val; rw [if_neg hn]
    | ⟨1, _⟩ => show (0 : ℕ) = if (1 : ℕ) = 1 then 0 else (i 1).val; rw [if_pos rfl]
  · match a with
    | ⟨0, _⟩ => show (i 0).val = if n = 1 then 0 else (i 0).val; rw [if_neg hn]

/-- The two forms of the mean agree as whole arrays: A · rows(1 / max(g, 1)) = A / rows(max(g, 1)), where 1 is the
    single-precision word for one, splat over the vector. -/
theorem mean_forms {n c : ℕ} (hn : n ≠ 1)
    (h0 : (⟨0, ![]⟩ : Shape).BroadcastsInDim ⟨1, ![n]⟩ ![])
    (h1 : (⟨1, ![n]⟩ : Shape).BroadcastsInDim ⟨2, ![n, 1]⟩ ![0]) (h2 : (⟨2, ![n, 1]⟩ : Shape).BroadcastsInDim ⟨2, ![n, c]⟩ ![0, 1])
    (A : FVec Ideal ⟨2, ![n, c]⟩ .f32) (g : FVec Ideal ⟨1, ![n]⟩ .f32) :
    mulf A (broadcastInDim ⟨2, ![n, c]⟩ ![0, 1] h2 (broadcastInDim ⟨2, ![n, 1]⟩ ![0] h1
        (Host.divf (broadcastInDim ⟨1, ![n]⟩ ![] h0 (constant (F := Ideal) ⟨0, ![]⟩ .f32 0x3F800000#32))
          (maximumf g (broadcastInDim ⟨1, ![n]⟩ ![] h0 (constant (F := Ideal) ⟨0, ![]⟩ .f32 0x3F800000#32))))))
      = Host.divf A (broadcastInDim ⟨2, ![n, c]⟩ ![0, 1] h2 (broadcastInDim ⟨2, ![n, 1]⟩ ![0] h1
          (maximumf g (broadcastInDim ⟨1, ![n]⟩ ![] h0 (constant (F := Ideal) ⟨0, ![]⟩ .f32 0x3F800000#32))))) := by
  funext i
  show A i * _ = Ideal.div (A i) _
  rw [rows_apply hn h1 h2, rows_apply hn h1 h2]
  show A i * Ideal.div (Ideal.ofBits .f32 0x3F800000#32) (max (g (ix1 (i 0))) (Ideal.ofBits .f32 0x3F800000#32))
    = Ideal.div (A i) (max (g (ix1 (i 0))) (Ideal.ofBits .f32 0x3F800000#32))
  rw [one_f32]
  exact mean_scalar _ _

end LibMeanForms

end
-- ==== Proof.LibRowGather.lean ====
/-
  A row gather read at an entry.  For a matrix `x : [N, D]` and a column of start indices `idx : [E, 1]`,
  `x[idx]` (offset axis 1, collapsed axis 0, start index map [0], slices of one whole row) has at entry (e, j)
  the matrix entry (r, j), where the row r is the e-th start index read as a signed integer and clamped into
  [0, N - 1].  The column j is untouched, so a gather of rows commutes with anything that acts column by column.
-/
import Idealize.ShloMosaic.Lib.ValueIdx

noncomputable section

namespace LibRowGather

open Idealize.ShloMosaic Idealize.ShloMosaic.ValueIdx

/-- The dimension numbers of a gather of whole rows: operand `[N, D]`, start indices `[E, 1]`, result `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index selects: the word read signed, clamped into `[0, N - 1]`. -/
def clampRow (N : Nat) (hN : 0 < N) {w : Nat} (v : BitVec w) : Fin N := ⟨min v.toInt.toNat (N - 1), by omega⟩

/-- THE ROW GATHER AT `(e, j)`: the operand's entry at the clamped row `idx[e, 0]` and the same column `j`. -/
theorem gather_rows_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N D E wf) x idx (ix2 e j)
      = x (ix2 (clampRow N hN (idx (ix2 e (0 : Fin 1)))) j) := by
  unfold Host.gather
  refine congrArg x (funext fun a => Fin.ext ?_)
  match a with
  | ⟨0, _⟩ =>
    show (rowDims N D E wf).start (ix2 e j) idx 0 + (rowDims N D E wf).batchCoord (ix2 e j) 0
      + (rowDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e j) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D E wf).start (ix2 e j) idx 1 + (rowDims N D E wf).batchCoord (ix2 e j) 1
      + (rowDims N D E wf).offCoord (ix2 e j) 1 = j.val
    rw [GatherDims.batchCoord_eq_zero _ _ _ List.not_mem_nil]
    unfold GatherDims.start
    rw [dif_neg (show ¬ (1 : Fin 2) ∈ (rowDims N D E wf).startIndexMap by
      show ¬ (1 : Fin 2) ∈ ([0] : List (Fin 2)); decide)]
    simp only [Nat.add_zero, Nat.zero_add]
    unfold GatherDims.offCoord
    rw [dif_pos ((GatherDims.mem_sKept _ _).mpr ⟨by show ¬ (1 : Fin 2) ∈ ([0] : List (Fin 2)); decide, List.not_mem_nil⟩)]
    rfl

end LibRowGather

end
-- ==== Proof.LibRowScatter.lean ====
/-
  An accumulating scatter of whole rows, read at an entry.

  Update rows upd : [E, D] are summed into the rows of a matrix x : [N, D] that an integer column idx : [E, 1]
  names (a segment sum of rows).  Entry (e, d) of the updates lands on entry (i, j) of the result exactly when
  the e-th index, read as a signed integer and NOT clamped, equals i, and d = j; an index outside [0, N) lands
  nowhere.  Hence, at exact arithmetic, entry (i, j) of the scattered sum is the operand's entry plus the sum
  over all e of "upd (e, j) if the e-th index equals i, else 0".
-/
import Idealize.ShloMosaic.Lib.ValueIdx
import Idealize.ShloMosaic.PureOps.Ideal.Laws

noncomputable section

open scoped BigOperators

namespace LibRowScatter

open Idealize.ShloMosaic Idealize.ShloMosaic.ValueIdx

/-- The dimension numbers of a segment sum of rows into a matrix `[N, D]`: updates `[E, D]`, index column `[E, 1]`. -/
abbrev addRowsDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Update entry `(e, d)` lands on entry `(i, j)` exactly when the `e`-th index, read signed, is `i` and `d = j`. -/
theorem resultIdx?_rows_iff {N D E w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx) :
    (addRowsDims N D E wf).resultIdx? j idx = some i
      ↔ (idx (ix2 (j 0) (0 : Fin 1))).toInt = ((i 0).val : ℤ) ∧ (j 1).val = (i 1).val := by
  have hi0 : (i 0).val < N := idx2_lt0 i
  have hi1 : (i 1).val < D := idx2_lt1 i
  have hj1 : (j 1).val < D := idx2_lt1 j
  have hstart0 : (addRowsDims N D E wf).start j idx 0 = (idx (ix2 (j 0) (0 : Fin 1))).toInt := by
    unfold ScatterDims.start
    rw [dif_pos (show (0 : Fin 2) ∈ (addRowsDims N D E wf).scatterDimsToOperandDims from List.mem_singleton.mpr rfl)]
    have hsi : (addRowsDims N D E wf).siIdx j ⟨List.idxOf (0 : Fin 2) (addRowsDims N D E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin0 : (addRowsDims N D E wf).window j 0 = 0 := by
    unfold ScatterDims.window
    rw [dif_neg (by simp [ScatterDims.sKept, Shape.kept])]
  have hstart1 : (addRowsDims N D E wf).start j idx 1 = 0 := by
    unfold ScatterDims.start
    rw [dif_neg (by simp [ScatterDims.sKept, Shape.kept])]
  have hwin1 : (addRowsDims N D E wf).window j 1 = (j 1).val := by
    unfold ScatterDims.window
    rw [dif_pos (by simp [ScatterDims.sKept, Shape.kept])]
    rfl
  unfold ScatterDims.resultIdx?
  split
  · rename_i h
    rw [Option.some_inj]
    constructor
    · intro he
      have h0 := congrArg (fun f => (f 0).val) he
      have h1 := congrArg (fun f => (f 1).val) he
      have hh := h 0
      simp only [hstart0, hwin0] at h0 hh
      simp only [hstart1, hwin1] at h1
      constructor
      · omega
      · omega
    · rintro ⟨he, hd⟩
      funext a
      refine Fin.ext ?_
      match a with
      | ⟨0, _⟩ =>
        show ((addRowsDims N D E wf).start j idx 0 + ((addRowsDims N D E wf).window j 0 : ℕ)).toNat = (i 0).val
        rw [hstart0, hwin0]
        omega
      | ⟨1, _⟩ =>
        show ((addRowsDims N D E wf).start j idx 1 + ((addRowsDims N D E wf).window j 1 : ℕ)).toNat = (i 1).val
        rw [hstart1, hwin1]
        omega
  · rename_i h
    constructor
    · intro he; exact absurd he (by simp)
    · rintro ⟨he, hd⟩
      exfalso
      apply h
      intro a
      match a with
      | ⟨0, _⟩ =>
        show 0 ≤ (addRowsDims N D E wf).start j idx 0 + ((addRowsDims N D E wf).window j 0 : ℕ)
          ∧ (addRowsDims N D E wf).start j idx 0 + ((addRowsDims N D E wf).window j 0 : ℕ) < (N : ℤ)
        rw [hstart0, hwin0]
        omega
      | ⟨1, _⟩ =>
        show 0 ≤ (addRowsDims N D E wf).start j idx 1 + ((addRowsDims N D E wf).window j 1 : ℕ)
          ∧ (addRowsDims N D E wf).start j idx 1 + ((addRowsDims N D E wf).window j 1 : ℕ) < ((D : ℕ) : ℤ)
        rw [hstart1, hwin1]
        omega

/-- At exact arithmetic, entry `(i, j)` of the segment sum of rows is the operand's entry plus the sum over all
    `e` of "update entry `(e, j)` if the `e`-th index is `i`, else 0". -/
theorem scatterAdd_rows_apply {N D E w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (i : Fin N) (j : Fin D) :
    Host.scatterAdd (addRowsDims N D E wf) x idx upd (ix2 i j)
      = x (ix2 i j) + ∑ e : Fin E, if (idx (ix2 e (0 : Fin 1))).toInt = ((i : ℕ) : ℤ) then upd (ix2 e j) else 0 := by
  show Ideal.hostScatterAdd (addRowsDims N D E wf) x idx upd (ix2 i j) = _
  unfold Ideal.hostScatterAdd
  congr 1
  rw [Finset.sum_filter, sum_idx2]
  refine Finset.sum_congr rfl (fun e _ => ?_)
  have hcond : ∀ d : Fin D, ((addRowsDims N D E wf).resultIdx? (ix2 e d) idx = some (ix2 i j))
      ↔ ((idx (ix2 e (0 : Fin 1))).toInt = ((i : ℕ) : ℤ) ∧ d = j) := by
    intro d
    rw [resultIdx?_rows_iff wf idx (ix2 e d) (ix2 i j)]
    exact and_congr Iff.rfl ⟨fun h => Fin.ext h, fun h => congrArg Fin.val h⟩
  by_cases hP : (idx (ix2 e (0 : Fin 1))).toInt = ((i : ℕ) : ℤ)
  · rw [if_pos hP]
    rw [Finset.sum_congr rfl (fun d _ => if_congr ((hcond d).trans (and_iff_right hP)) rfl rfl)]
    rw [Finset.sum_ite_eq' Finset.univ j (fun d => upd (ix2 e d))]
    simp
  · rw [if_neg hP]
    refine Finset.sum_eq_zero (fun d _ => ?_)
    rw [if_neg]
    intro h
    exact hP ((hcond d).mp h).1

end LibRowScatter

end
-- ==== Proof.LibSegmentSum.lean ====
/-
  A segment sum of gathered rows, at an entry.

  Given a matrix v : [N, D], a column of source indices src : [E, 1] and a column of target indices dst : [E, 1], gather
  the rows v[src] : [E, D] (an index clamped into [0, N - 1]) and sum them into a zero matrix [N, D] at the rows dst
  names (an index outside [0, N) lands nowhere). At exact arithmetic entry (i, j) of the result is the sum, over the
  edges e whose target is i, of v (row e, j).
-/
import Idealize.ShloMosaic.Lib.ValueIdx
import Idealize.ShloMosaic.Lib.Pipeline.Value
import Idealize.ShloMosaic.PureOps.Ideal.Laws
import proofs.«154276_j32787780338275_2_alg».proof.Proof.LibRowGather
import proofs.«154276_j32787780338275_2_alg».proof.Proof.LibRowScatter

noncomputable section

open scoped BigOperators

namespace LibSegmentSum

open Idealize.ShloMosaic Idealize.ShloMosaic.ValueIdx

/-- Edge `e`'s target: the `e`-th word of an index column, read signed. -/
def tgtOf {E w : ℕ} (col : IVec ⟨2, ![E, 1]⟩ w) (e : Fin E) : ℤ := (col (ix2 e (0 : Fin 1))).toInt

/-- Edge `e`'s source row: the `e`-th word of an index column, read signed and clamped into `[0, N - 1]`. -/
def rowOf (N : ℕ) (hN : 0 < N) {E w : ℕ} (col : IVec ⟨2, ![E, 1]⟩ w) (e : Fin E) : Fin N :=
  LibRowGather.clampRow N hN (col (ix2 e (0 : Fin 1)))

/-- The neighbour sum of a row field `v` at node `i`, column `f`: the rows of the edges whose target is `i`. -/
def nsum {N E K : ℕ} (tgt : Fin E → ℤ) (row : Fin E → Fin N) (v : Fin N → Fin K → EReal) (i : Fin N) (f : Fin K) : EReal :=
  ∑ e : Fin E, if tgt e = ((i : ℕ) : ℤ) then v (row e) f else 0

/-- THE SEGMENT SUM OF GATHERED ROWS AT `(i, j)`: the neighbour sum of the matrix's rows. -/
theorem segsum_gather_apply {N D E w : ℕ} (hN : 0 < N)
    (wfG : GatherDims.WF ⟨2, ![N, D]⟩ ⟨2, ![E, 1]⟩ ⟨2, ![E, D]⟩ [1] [0] [] [0] [] 1 ![1, D])
    (wfS : ScatterDims.WF ⟨2, ![N, D]⟩ ⟨2, ![E, 1]⟩ ⟨2, ![E, D]⟩ [1] [0] [0] 1)
    (h0 : (⟨0, ![]⟩ : Shape).BroadcastsInDim ⟨2, ![N, D]⟩ ![])
    (v : FVec Ideal ⟨2, ![N, D]⟩ .f32) (src dst : IVec ⟨2, ![E, 1]⟩ w) (i : Fin N) (j : Fin D) :
    Host.scatterAdd (LibRowScatter.addRowsDims N D E wfS)
        (broadcastInDim ⟨2, ![N, D]⟩ ![] h0 (constant (F := Ideal) ⟨0, ![]⟩ .f32 0x00000000#32)) dst
        (Host.gather (LibRowGather.rowDims N D E wfG) v src) (ix2 i j)
      = nsum (tgtOf dst) (rowOf N hN src) (fun r f => v (ix2 r f)) i j := by
  rw [LibRowScatter.scatterAdd_rows_apply wfS]
  rw [broadcastInDim_apply ![] h0 (constant (F := Ideal) ⟨0, ![]⟩ .f32 0x00000000#32) (ix2 i j) ix0 (fun a => a.elim0)]
  rw [constant_apply, Ideal.ofBits_zero_f32, zero_add]
  unfold nsum tgtOf rowOf
  refine Finset.sum_congr rfl fun e _ => ?_
  rw [LibRowGather.gather_rows_apply hN wfG v src e j]

end LibSegmentSum

end
-- ==== Proof.SageSpec.lean ====
/-
  Two layers of neighbourhood-mean graph convolution, entry by entry, on the extended reals.

  Nodes i carry feature rows x i. An edge e names a source row `row e` and a target `tgt e` (an integer: a target outside
  the node range selects nothing). With D i ≥ 1 the clamped in-degree of node i:

    mean₁ i f = (Σ_{e : tgt e = i} x (row e) f) / D i
    hid  i c = max (Σ_f mean₁ i f · W1l f c + b1 c + Σ_f x i f · W1r f c) 0
    out  i o = Σ_c ((Σ_{e : tgt e = i} hid (row e) c) / D i) · W2l c o + b2 o + Σ_c hid i c · W2r c o.

  The second form projects every node's hidden row by W2l BEFORE the edges are summed, and scales by the reciprocal
  1 / D i afterwards:

    out' i o = (Σ_{e : tgt e = i} Σ_c hid' (row e) c · W2l c o) · (1 / D i) + b2 o + Σ_c hid' i c · W2r c o,

  where hid' uses mean₁ · as (Σ …) · (1 / D i) and adds the bias last. The two hidden layers agree with no finiteness
  (a quotient by D i ≠ 0 is a product with the inverse; + is commutative and associative on the extended reals). The two
  outputs agree when the hidden entries and W2l are real: then both are finite sums of reals and the identity is an
  interchange of two finite sums with a real factor moved across.
-/
import Idealize.ShloMosaic.PureOps.Ideal
import proofs.«154276_j32787780338275_2_alg».proof.Proof.LibRealEntries
import proofs.«154276_j32787780338275_2_alg».proof.Proof.LibMeanProject
import proofs.«154276_j32787780338275_2_alg».proof.Proof.LibMeanForms
import proofs.«154276_j32787780338275_2_alg».proof.Proof.LibSegmentSum

noncomputable section

open scoped BigOperators

namespace SageSpec

open Idealize.ShloMosaic RealEntries LibSegmentSum

variable {N E A B C : ℕ}

/-- The hidden layer: mean of the neighbours' inputs through W1l, plus bias, plus the node's own input through W1r,
    clamped below at 0. -/
def hid (tgt : Fin E → ℤ) (row : Fin E → Fin N) (D : Fin N → EReal) (x : Fin N → Fin A → EReal)
    (W1l : Fin A → Fin B → EReal) (b1 : Fin B → EReal) (W1r : Fin A → Fin B → EReal) (i : Fin N) (c : Fin B) : EReal :=
  max ((∑ f : Fin A, Ideal.div (nsum tgt row x i f) (D i) * W1l f c) + b1 c + ∑ f : Fin A, x i f * W1r f c) 0

/-- The same layer with the mean taken as a product with the reciprocal and the bias added last. -/
def hid' (tgt : Fin E → ℤ) (row : Fin E → Fin N) (D : Fin N → EReal) (x : Fin N → Fin A → EReal)
    (W1l : Fin A → Fin B → EReal) (b1 : Fin B → EReal) (W1r : Fin A → Fin B → EReal) (i : Fin N) (c : Fin B) : EReal :=
  max (((∑ f : Fin A, (nsum tgt row x i f * Ideal.div 1 (D i)) * W1l f c) + ∑ f : Fin A, x i f * W1r f c) + b1 c) 0

/-- The output layer, mean first, projection second. -/
def out (tgt : Fin E → ℤ) (row : Fin E → Fin N) (D : Fin N → EReal) (h : Fin N → Fin B → EReal)
    (W2l : Fin B → Fin C → EReal) (b2 : Fin C → EReal) (W2r : Fin B → Fin C → EReal) (i : Fin N) (o : Fin C) : EReal :=
  (∑ c : Fin B, Ideal.div (nsum tgt row h i c) (D i) * W2l c o) + b2 o + ∑ c : Fin B, h i c * W2r c o

/-- The output layer, projection first, neighbour sum second, reciprocal scale last. -/
def out' (tgt : Fin E → ℤ) (row : Fin E → Fin N) (D : Fin N → EReal) (h : Fin N → Fin B → EReal)
    (W2l : Fin B → Fin C → EReal) (b2 : Fin C → EReal) (W2r : Fin B → Fin C → EReal) (i : Fin N) (o : Fin C) : EReal :=
  (nsum tgt row (fun r o' => ∑ c : Fin B, h r c * W2l c o') i o * Ideal.div 1 (D i) + b2 o) + ∑ c : Fin B, h i c * W2r c o

/-- A clamped degree: at least 1. -/
def clampDeg (g : EReal) : EReal := max g 1

theorem one_le_clampDeg (g : EReal) : 1 ≤ clampDeg g := le_max_right g 1

/-- The two hidden layers are one function when every divisor is a clamped degree. -/
theorem hid'_eq_hid (tgt : Fin E → ℤ) (row : Fin E → Fin N) (g : Fin N → EReal) (x : Fin N → Fin A → EReal)
    (W1l : Fin A → Fin B → EReal) (b1 : Fin B → EReal) (W1r : Fin A → Fin B → EReal) :
    hid' tgt row (fun i => clampDeg (g i)) x W1l b1 W1r = hid tgt row (fun i => clampDeg (g i)) x W1l b1 W1r := by
  funext i c
  unfold hid' hid clampDeg
  simp only [LibMeanForms.mean_scalar]
  rw [add_right_comm]

theorem isR_nsum (tgt : Fin E → ℤ) (row : Fin E → Fin N) {K : ℕ} (v : Fin N → Fin K → EReal)
    (hv : ∀ r f, IsR (v r f)) (i : Fin N) (f : Fin K) : IsR (nsum tgt row v i f) :=
  IsR.sum _ _ fun e _ => IsR.ite (hv _ _) isR_zero

/-- Every hidden entry is real when the inputs, both first-layer weights and the bias are, and the divisors are ≥ 1. -/
theorem isR_hid (tgt : Fin E → ℤ) (row : Fin E → Fin N) (D : Fin N → EReal) (x : Fin N → Fin A → EReal)
    (W1l : Fin A → Fin B → EReal) (b1 : Fin B → EReal) (W1r : Fin A → Fin B → EReal)
    (hD : ∀ i, 1 ≤ D i) (hx : ∀ i f, IsR (x i f)) (hl : ∀ f c, IsR (W1l f c)) (hb : ∀ c, IsR (b1 c))
    (hr : ∀ f c, IsR (W1r f c)) (i : Fin N) (c : Fin B) : IsR (hid tgt row D x W1l b1 W1r i c) := by
  unfold hid
  refine IsR.max (((IsR.sum _ _ fun f _ => ?_).add (hb c)).add (IsR.sum _ _ fun f _ => (hx i f).mul (hr f c))) isR_zero
  obtain ⟨r, hr'⟩ := LibMeanProject.div_ge_one (D i) (hD i)
  rw [hr']
  exact ((isR_nsum tgt row x hx i f).mul (isR_coe r)).mul (hl f c)

/-- THE TWO OUTPUT LAYERS ARE ONE FUNCTION on real hidden rows and real W2l, the divisors being ≥ 1. -/
theorem out'_eq_out (tgt : Fin E → ℤ) (row : Fin E → Fin N) (D : Fin N → EReal) (h : Fin N → Fin B → EReal)
    (W2l : Fin B → Fin C → EReal) (b2 : Fin C → EReal) (W2r : Fin B → Fin C → EReal)
    (hD : ∀ i, 1 ≤ D i) (hh : ∀ r c, IsR (h r c)) (hw : ∀ c o, IsR (W2l c o)) :
    out' tgt row D h W2l b2 W2r = out tgt row D h W2l b2 W2r := by
  funext i o
  unfold out' out nsum
  rw [LibMeanProject.mean_then_project (fun e : Fin E => tgt e = ((i : ℕ) : ℤ)) (fun e c => h (row e) c)
    (fun c => W2l c o) (D i) (fun e c => hh _ _) (fun c => hw c o) (hD i)]

end SageSpec

end
-- ==== Proof.LibFiniteEntries.lean ====
/-
  A conjunction "every entry's absolute value is below +∞", read back at exact arithmetic.

  On the extended reals the absolute value of x is max(x, -x), and it is below +∞ exactly when x is neither infinity,
  that is, when x is (the image of) a real number: x = ↑(x.toReal). A precondition that takes the conjunction of
  |x_i| < +∞ over all entries of an array (a reduction by "and" of the one-bit comparisons into a single result, from the
  constant 1) and states that the result is 1 therefore says that the array is the image of its real parts.
  Stated for f32 arrays of any shape, the bound being any array that reads the word of +∞ (0x7F800000) everywhere.
-/
import Idealize.ShloMosaic.PureOps.Ideal
import Idealize.ShloMosaic.PureOps.Ideal.Laws
import Idealize.ShloMosaic.Lib.ReduceAll

noncomputable section

namespace LibFiniteEntries

open Idealize.ShloMosaic

/-- The word 0x7F800000 denotes +∞. -/
theorem ofBits_inf : Ideal.ofBits .f32 0x7F800000#32 = ⊤ := by
  simp [Ideal.ofBits, Ideal.ieee]

/-- An extended real whose absolute value max(x, -x) compares below +∞ is the image of its real part. -/
theorem real_of_abs_lt (x : EReal)
    (h : FloatOps.cmpf (F := Ideal) (φ := .f32) .olt (FloatOps.hostAbsf x) (Ideal.ofBits .f32 0x7F800000#32) = 1#1) :
    x = ((x.toReal : ℝ) : EReal) := by
  rw [Ideal.cmpf_def, Ideal.hostAbsf_def, Ideal.absf_def, ofBits_inf] at h
  induction x using EReal.rec with
  | bot => simp [Ideal.cmp] at h
  | top => simp [Ideal.cmp] at h
  | coe r => rfl

/-- The scalar shape has one index. -/
instance : Subsingleton (⟨0, ![]⟩ : Shape).Idx := ⟨fun a b => funext fun d => d.elim0⟩

/-- If the conjunction over ALL entries of "|x_i| < bound_i" is 1, the bound reading +∞ everywhere, then the array x is
    the image of its real parts. -/
theorem real_of_all_abs_lt {s t u : Shape} {axes : List (Fin s.rank)} [Subsingleton t.Idx] (x bound : FVec Ideal s .f32)
    (hb : ∀ i, bound i = Ideal.ofBits .f32 0x7F800000#32) (init : u.Idx → BitVec 1) (h : s.ReducesTo axes t) (hu : 0 < u.numel)
    (j : t.Idx) (e : Host.reduce IntOp.andi (cmpf .olt (Host.absf x) bound) init h hu j = 1#1) :
    x = fun i => (((x i).toReal : ℝ) : EReal) :=
  funext fun i => real_of_abs_lt (x i) (by
    have hi : FloatOps.cmpf (F := Ideal) (φ := .f32) .olt (FloatOps.hostAbsf (x i)) (bound i) = 1#1 :=
      Host.reduce_andi_all _ init h hu j e i
    rw [hb i] at hi
    exact hi)

end LibFiniteEntries

end
-- ==== Proof.SageFinite.lean ====
/-
  The precondition, read: every entry of the float inputs the joining law needs is a real number.

  The precondition is the conjunction, over the seven float inputs, of "every entry's absolute value is below +∞",
  required to be 1. A conjunction of one-bit words is 1 exactly when each is; each factor is a reduction by "and" over
  all entries of an array, which is 1 only if every entry's comparison is; and an extended real whose absolute value is
  below +∞ is neither infinity. So the node features, both first-layer weight matrices, the first bias and the second
  layer's neighbour weight matrix consist of real numbers.
-/
import proofs.«154276_j32787780338275_2_alg».proof.Pre_finite_inputs
import proofs.«154276_j32787780338275_2_alg».proof.Proof.LibFiniteEntries
import proofs.«154276_j32787780338275_2_alg».proof.Proof.LibRealEntries
import Idealize.ShloMosaic.Lib.ValueIdx
import Idealize.ShloMosaic.Lib.Pipeline.Value
import Idealize.ShloMosaic.Lib.Affine

noncomputable section

namespace SageFinite

open Idealize.ShloMosaic RealEntries

/-- One factor of the precondition: if the "and" over all entries of |x| < +∞ is 1, every entry of x is real. -/
theorem isR_of_all {s : Shape} {axes : List (Fin s.rank)} (x : FVec Ideal s .f32)
    (hbc : (⟨0, ![]⟩ : Shape).BroadcastsInDim s ![]) (init : IVec ⟨0, ![]⟩ 1)
    (h : s.ReducesTo axes ⟨0, ![]⟩) (hu : 0 < (⟨0, ![]⟩ : Shape).numel)
    (e : Host.reduce IntOp.andi (cmpf .olt (Host.absf x)
        (broadcastInDim s ![] hbc (constant (F := Ideal) ⟨0, ![]⟩ .f32 0x7F800000#32))) init h hu ValueIdx.ix0 = 1#1) :
    ∀ i, IsR (x i) := by
  intro i
  have hb : ∀ i, broadcastInDim s ![] hbc (constant (F := Ideal) ⟨0, ![]⟩ .f32 0x7F800000#32) i
      = Ideal.ofBits .f32 0x7F800000#32 := fun i =>
    (broadcastInDim_apply ![] hbc (constant (F := Ideal) ⟨0, ![]⟩ .f32 0x7F800000#32) i ValueIdx.ix0 (fun a => a.elim0)).trans
      (ValueIdx.constant_apply (s := ⟨0, ![]⟩) (φ := .f32) 0x7F800000#32 ValueIdx.ix0)
  have hx := LibFiniteEntries.real_of_all_abs_lt x
    (broadcastInDim s ![] hbc (constant (F := Ideal) ⟨0, ![]⟩ .f32 0x7F800000#32)) hb init h hu ValueIdx.ix0 e
  exact ⟨(x i).toReal, congrFun hx i⟩

open Cert.Pre_finite_inputs in
/-- The precondition gives: the features, W1l, b1, W1r and W2l are arrays of real numbers. -/
theorem real_inputs [Cert.Pre_finite_inputs.Facts]
    (x0 : FVec Ideal S100000x9 .f32) (x1 : IVec S2x1600000 32) (x2 : FVec Ideal S9x64 .f32) (x3 : FVec Ideal S64 .f32)
    (x4 : FVec Ideal S9x64 .f32) (x5 : FVec Ideal S64x32 .f32) (x6 : FVec Ideal S32 .f32) (x7 : FVec Ideal S64x32 .f32)
    (h : Cert.Pre_finite_inputs.fn (F := Ideal) x0 x1 x2 x3 x4 x5 x6 x7 = fun _ => 1#1) :
    (∀ i, IsR (x0 i)) ∧ (∀ i, IsR (x2 i)) ∧ (∀ i, IsR (x3 i)) ∧ (∀ i, IsR (x4 i)) ∧ (∀ i, IsR (x5 i)) := by
  have h0 := congrFun h ValueIdx.ix0
  dsimp only [Cert.Pre_finite_inputs.fn, Cert.Pre_finite_inputs.fn_part1, Idealize.ShloMosaic.andi] at h0
  simp only [IntOp.andi_eq_one] at h0
  obtain ⟨⟨⟨⟨⟨⟨e0, e2⟩, e3⟩, e4⟩, e5⟩, e6⟩, e7⟩ := h0
  exact ⟨isR_of_all x0 _ _ _ _ e0, isR_of_all x2 _ _ _ _ e2, isR_of_all x3 _ _ _ _ e3, isR_of_all x4 _ _ _ _ e4,
    isR_of_all x5 _ _ _ _ e5⟩

end SageFinite

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibHostDotIdx.lean ====
/-
  A host product of two matrices at exact arithmetic, read at an entry: the sum over the contracted axis of the
  products of the left factor's row entries with the right factor's column entries. Stated for any contraction
  record between two-axis shapes whose operand indices are "row of the result, contracted position" and
  "contracted position, column of the result" — the same reading the TensorCore product has, so that the two
  meet in one sum.
-/
import Idealize.ShloMosaic.Lib.ValueIdx
import Idealize.ShloMosaic.PureOps.Ideal.Laws

noncomputable section

namespace LibHostDotIdx

open Idealize.ShloMosaic Idealize.ShloMosaic.ValueIdx

/-- The host's `dot_general` of an M×K by a K×N matrix, at entry `j`: Σ_k l[j₀,k] · r[k,j₁]. -/
theorem hostDot2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) D prec l r j
      = ∑ k : Fin K, l (ix2 (n0 := M) (n1 := K) (j 0) k) * r (ix2 (n0 := K) (n1 := N) k (j 1)) := by
  simp only [Host.dotGeneral]
  rw [Ideal.dotGeneral_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibHostDotIdx

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.LibDenseLayer.lean ====
/-
  One dense layer in the two programs' spellings, at exact arithmetic.

  A product of an M×K by a K×N matrix, whether the TensorCore's (into a zero accumulator, operands narrowed to bf16, which
  is the identity on extended reals) or the host's, is at entry (p, q) the sum over k of l[p,k] · r[k,q]. A bias vector
  [N] laid out as the row [1, N] and repeated down the M rows reads b[q] at (p, q) in either spelling. So a layer
  "product, plus bias" and its clamp below at 0 are the same array in both programs.
-/
import Idealize.ShloMosaic.Lib.ValueIdx
import Idealize.ShloMosaic.Lib.Pipeline.Value
import Idealize.ShloMosaic.PureOps.Ideal.Laws
import proofs.«154276_j32787780338275_2_alg».proof.Proof.LibMatmulIdx
import proofs.«154276_j32787780338275_2_alg».proof.Proof.LibHostDotIdx
import proofs.«154276_j32787780338275_2_alg».proof.Proof.LibRowOps

noncomputable section

namespace LibDenseLayer

open Idealize.ShloMosaic Idealize.ShloMosaic.ValueIdx

/-- The contraction record of a plain matrix product: left axis 1 against right axis 0, no batch axes. -/
abbrev mmDims (M K N : ℕ)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section
variable {M K N : ℕ} (wf : DotDims.WF ⟨2, ![M, K]⟩ ⟨2, ![K, N]⟩ ⟨2, ![M, N]⟩ [1] [0] [0] [1] [] [])

theorem mm_l0 (j : (⟨2, ![M, N]⟩ : Shape).Idx) (k : (mmDims M K N wf).contr.Idx) :
    ((mmDims M K N wf).lhsIdx j k 0).val = (j 0).val := by
  unfold DotDims.lhsIdx
  rw [dif_neg (show ¬(0 : Fin 2) ∈ (mmDims M K N wf).lhsBatch from List.not_mem_nil),
    dif_pos (show (0 : Fin 2) ∈ (mmDims M K N wf).lhsNonContracting from List.mem_singleton.mpr rfl)]
  rfl

theorem mm_l1 (j : (⟨2, ![M, N]⟩ : Shape).Idx) (k : (mmDims M K N wf).contr.Idx) :
    ((mmDims M K N wf).lhsIdx j k 1).val = (k ⟨0, (Nat.zero_lt_one : 0 < 1)⟩).val :=
  (mmDims M K N wf).lhsIdx_val_of_single rfl j k

theorem mm_r0 (j : (⟨2, ![M, N]⟩ : Shape).Idx) (k : (mmDims M K N wf).contr.Idx) :
    ((mmDims M K N wf).rhsIdx j k 0).val = (k ⟨0, (Nat.zero_lt_one : 0 < 1)⟩).val :=
  (mmDims M K N wf).rhsIdx_val_of_single rfl j k

theorem mm_r1 (j : (⟨2, ![M, N]⟩ : Shape).Idx) (k : (mmDims M K N wf).contr.Idx) :
    ((mmDims M K N wf).rhsIdx j k 1).val = (j 1).val := by
  unfold DotDims.rhsIdx
  rw [dif_neg (show ¬(1 : Fin 2) ∈ (mmDims M K N wf).rhsBatch from List.not_mem_nil),
    dif_pos (show (1 : Fin 2) ∈ (mmDims M K N wf).rhsNonContracting from List.mem_singleton.mpr rfl)]
  rfl

/-- The TensorCore product into a zero accumulator at an entry. -/
theorem tc_apply {φ₁ φ₂ : FTy} (l : FVec Ideal ⟨2, ![M, K]⟩ φ₁) (r : FVec Ideal ⟨2, ![K, N]⟩ φ₂)
    (j : (⟨2, ![M, N]⟩ : Shape).Idx) :
    FloatOps.matmul (F := Ideal) (mmDims M K N wf) none l r (constant ⟨2, ![M, N]⟩ .f32 0x00000000#32) j
      = ∑ k : Fin K, l (ix2 (n0 := M) (n1 := K) (j 0) k) * r (ix2 (n0 := K) (n1 := N) k (j 1)) :=
  LibMatmulIdx.matmul2_apply (mmDims M K N wf) rfl rfl (mm_l0 wf) (mm_l1 wf) (mm_r0 wf) (mm_r1 wf) none l r j

/-- The host product at an entry. -/
theorem host_apply {φ₁ φ₂ : FTy} (l : FVec Ideal ⟨2, ![M, K]⟩ φ₁) (r : FVec Ideal ⟨2, ![K, N]⟩ φ₂)
    (j : (⟨2, ![M, N]⟩ : Shape).Idx) :
    Host.dotGeneral (F := Ideal) (mmDims M K N wf) none l r j
      = ∑ k : Fin K, l (ix2 (n0 := M) (n1 := K) (j 0) k) * r (ix2 (n0 := K) (n1 := N) k (j 1)) :=
  LibHostDotIdx.hostDot2_apply (mmDims M K N wf) rfl rfl (mm_l0 wf) (mm_l1 wf) (mm_r0 wf) (mm_r1 wf) none l r j

/-- The two products of the same operands are one array (narrowing an operand to bf16 is the identity). -/
theorem tc_eq_host (wf' : DotDims.WF ⟨2, ![M, K]⟩ ⟨2, ![K, N]⟩ ⟨2, ![M, N]⟩ [1] [0] [0] [1] [] [])
    (l : FVec Ideal ⟨2, ![M, K]⟩ .f32) (r : FVec Ideal ⟨2, ![K, N]⟩ .f32) (hb : FTy.bits .bf16 < FTy.bits .f32) :
    FloatOps.matmul (F := Ideal) (mmDims M K N wf) none (truncf .bf16 l hb) (truncf .bf16 r hb)
        (constant ⟨2, ![M, N]⟩ .f32 0x00000000#32)
      = Host.dotGeneral (F := Ideal) (mmDims M K N wf') none l r := by
  funext j
  rw [tc_apply, host_apply]
  rfl
end

/-- A bias [n] as the row [1, n] repeated down [m, n], in the host's spelling, at an entry. -/
theorem bias_host_apply {α : Type} {m n : ℕ}
    (h1 : (⟨1, ![n]⟩ : Shape).BroadcastsInDim ⟨2, ![1, n]⟩ ![1])
    (h2 : (⟨2, ![1, n]⟩ : Shape).BroadcastsInDim ⟨2, ![m, n]⟩ ![0, 1])
    (y : (⟨1, ![n]⟩ : Shape).Idx → α) (i : (⟨2, ![m, n]⟩ : Shape).Idx) :
    broadcastInDim ⟨2, ![m, n]⟩ ![0, 1] h2 (broadcastInDim ⟨2, ![1, n]⟩ ![1] h1 y) i = y (ix1 (n := n) (i 1)) := by
  have hi1 : (i 1).val < n := idx2_lt1 i
  refine (broadcastInDim_apply ![0, 1] h2 _ i (ix2 (n0 := 1) (n1 := n) (0 : Fin 1) (i 1)) (fun a => ?_)).trans
    (broadcastInDim_apply ![1] h1 y _ (ix1 (n := n) (i 1)) (fun a => ?_))
  · match a with
    | ⟨0, _⟩ => show (0 : ℕ) = if (1 : ℕ) = 1 then 0 else (i 0).val; rw [if_pos rfl]
    | ⟨1, _⟩ => show (i 1).val = if n = 1 then 0 else (i 1).val; split <;> omega
  · match a with
    | ⟨0, _⟩ => show (i 1).val = if n = 1 then 0 else (i 1).val; split <;> omega

/-- The same bias in the kernel's spelling: the vector cast to the row [1, n], re-cast to itself, broadcast to [m, n]. -/
theorem bias_kernel_apply {α : Type} {m n : ℕ}
    (hc : (⟨1, ![n]⟩ : Shape).ShapeCasts ⟨2, ![1, n]⟩) (hs : (⟨2, ![1, n]⟩ : Shape).ShapeCasts ⟨2, ![1, n]⟩)
    (hb : (⟨2, ![1, n]⟩ : Shape).Broadcasts ⟨2, ![m, n]⟩)
    (y : (⟨1, ![n]⟩ : Shape).Idx → α) (i : (⟨2, ![m, n]⟩ : Shape).Idx) :
    broadcastTo ⟨2, ![m, n]⟩ (shapeCast ⟨2, ![1, n]⟩ (shapeCast ⟨2, ![1, n]⟩ y hc) hs) hb i = y (ix1 (n := n) (i 1)) := by
  rw [shapeCast_self]
  obtain ⟨p, q, rfl⟩ : ∃ (p : Fin m) (q : Fin n), i = ix2 p q := ⟨i 0, i 1, eq_ix2 i⟩
  rw [LibRowOps.broadcastTo_row_apply, LibRowOps.shapeCast_row_apply]
  rfl

/-- The bias row is the same array in both spellings. -/
theorem bias_eq {α : Type} {m n : ℕ}
    (hc : (⟨1, ![n]⟩ : Shape).ShapeCasts ⟨2, ![1, n]⟩) (hs : (⟨2, ![1, n]⟩ : Shape).ShapeCasts ⟨2, ![1, n]⟩)
    (hb : (⟨2, ![1, n]⟩ : Shape).Broadcasts ⟨2, ![m, n]⟩)
    (h1 : (⟨1, ![n]⟩ : Shape).BroadcastsInDim ⟨2, ![1, n]⟩ ![1])
    (h2 : (⟨2, ![1, n]⟩ : Shape).BroadcastsInDim ⟨2, ![m, n]⟩ ![0, 1])
    (y : (⟨1, ![n]⟩ : Shape).Idx → α) :
    broadcastTo ⟨2, ![m, n]⟩ (shapeCast ⟨2, ![1, n]⟩ (shapeCast ⟨2, ![1, n]⟩ y hc) hs) hb
      = broadcastInDim ⟨2, ![m, n]⟩ ![0, 1] h2 (broadcastInDim ⟨2, ![1, n]⟩ ![1] h1 y) :=
  funext fun i => (bias_kernel_apply hc hs hb y i).trans (bias_host_apply h1 h2 y i).symm

/-- A scalar word splat over a shape is the same array whether splat in a kernel or broadcast from a rank-0 constant. -/
theorem splat_eq {s : Shape} (h : (⟨0, ![]⟩ : Shape).BroadcastsInDim s ![]) (w : BitVec 32) :
    (broadcast s (Scalar.ofBits (F := Ideal) .f32 w) : FVec Ideal s .f32)
      = broadcastInDim s ![] h (constant (F := Ideal) ⟨0, ![]⟩ .f32 w) :=
  funext fun i =>
    (show (broadcast s (Scalar.ofBits (F := Ideal) .f32 w) : FVec Ideal s .f32) i
        = constant (F := Ideal) ⟨0, ![]⟩ .f32 w ix0 from rfl).trans
      (broadcastInDim_apply ![] h (constant (F := Ideal) ⟨0, ![]⟩ .f32 w) i ix0 (fun a => a.elim0)).symm

end LibDenseLayer

end
-- ==== Proof.LibColRow.lean ====
/-
  Two-axis broadcasts of a column and of a row, read at an entry.

  A column [a, 1] repeated across b columns reads, at (p, q), the column's entry p; a vector of length n laid out as
  the row [1, n] and repeated down m rows reads, at any entry, the vector at the entry's column. Together with the
  row-vector-as-column forms these are the two "keepdims" broadcasts a row-scaled, bias-shifted matrix needs.
-/
import Idealize.ShloMosaic.Lib.ValueIdx
import Idealize.ShloMosaic.Lib.Pipeline.Value

noncomputable section

namespace LibColRow

open Idealize.ShloMosaic Idealize.ShloMosaic.ValueIdx

variable {α : Type}

/-- An [a, 1] column broadcast to [a, b] reads, at (p, q), the column at p. -/
theorem broadcastTo_col_apply {a b : ℕ} (v : (⟨2, ![a, 1]⟩ : Shape).Idx → α)
    (h : (⟨2, ![a, 1]⟩ : Shape).Broadcasts ⟨2, ![a, b]⟩) (ha : a ≠ 1) (p : Fin a) (q : Fin b) :
    broadcastTo ⟨2, ![a, b]⟩ v h (ix2 p q) = v (ix2 p (0 : Fin 1)) := by
  refine broadcastTo_apply v h _ _ (fun ax => ?_)
  match ax with
  | ⟨0, _⟩ => show p.val = if a = 1 then 0 else p.val; rw [if_neg ha]
  | ⟨1, _⟩ => show (0 : ℕ) = if (1 : ℕ) = 1 then 0 else q.val; rw [if_pos rfl]

/-- An [n] vector laid out as the row [1, n] and repeated down [m, n], at any entry: the vector at the entry's
    column. -/
theorem cols_apply {m n : ℕ} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (y : (⟨1, ![n]⟩ : Shape).Idx → α) (i : (⟨2, ![m, n]⟩ : Shape).Idx) :
    broadcastInDim ⟨2, ![m, n]⟩ ![0, 1] h2 (broadcastInDim ⟨2, ![1, n]⟩ ![1] h1 y) i = y (ix1 (n := n) (i 1)) := by
  refine (broadcastInDim_apply ![0, 1] h2 _ i (ix2 (n0 := 1) (n1 := n) (0 : Fin 1) (i 1)) (fun a => ?_)).trans
    (broadcastInDim_apply ![1] h1 y _ (ix1 (n := n) (i 1)) (fun a => ?_))
  · match a with
    | ⟨0, _⟩ => show (0 : ℕ) = if (1 : ℕ) = 1 then 0 else (i 0).val; rw [if_pos rfl]
    | ⟨1, _⟩ => show (i 1).val = if n = 1 then 0 else (i 1).val; rw [if_neg hn]
  · match a with
    | ⟨0, _⟩ => show (i 1).val = if n = 1 then 0 else (i 1).val; rw [if_neg hn]

/-- A scalar splat over any shape, written as a rank-0 broadcast, reads the scalar everywhere. -/
theorem splat_apply {t : Shape} (h : (⟨0, ![]⟩ : Shape).BroadcastsInDim t ![])
    (y : (⟨0, ![]⟩ : Shape).Idx → α) (i : t.Idx) :
    broadcastInDim t ![] h y i = y ix0 :=
  broadcastInDim_apply ![] h y i ix0 (fun a => a.elim0)

end LibColRow

end
-- ==== Proof.RefIsSpec.lean ====
/-
  The reference program is the specification.

  Its last stage, read entry by entry: the second layer's output of the hidden rows, the hidden rows being the first
  layer's output of the inputs — with the source rows, the targets and the clamped degrees the program itself computes
  from the edge array.
-/
import proofs.«154276_j32787780338275_2_alg».proof.Proof.Gen.ReferenceIdeal.Read
import proofs.«154276_j32787780338275_2_alg».proof.Proof.SageSpec
import proofs.«154276_j32787780338275_2_alg».proof.Proof.LibSegmentSum
import proofs.«154276_j32787780338275_2_alg».proof.Proof.LibDenseLayer
import proofs.«154276_j32787780338275_2_alg».proof.Proof.LibMeanForms
import proofs.«154276_j32787780338275_2_alg».proof.Proof.LibColRow

noncomputable section

open scoped BigOperators

namespace Cert.ReferenceIdeal.Sage

open Cert.ReferenceIdeal Cert.ReferenceIdeal.Read Idealize.ShloMosaic Idealize.ShloMosaic.ValueIdx LibSegmentSum SageSpec

/-- The column of source indices the program gathers by (negative indices wrapped once by the row count). -/
def srcCol (x1 : IVec S2x1600000 32) : IVec S1600000x1 32 := val_main_v9 (F := Ideal) x1
/-- The column of target indices the program scatters by. -/
def dstCol (x1 : IVec S2x1600000 32) : IVec S1600000x1 32 := val_main_v12 (F := Ideal) x1
/-- The in-degree vector: a segment sum of ones by the targets. -/
def degVec (x1 : IVec S2x1600000 32) : FVec Ideal S100000 .f32 := val_main_v17 (F := Ideal) x1

/-! ### The printed records are the row gather and the row segment sum -/

theorem scat9_eq : scatter_S100000x9_S1600000x1_S1600000x9_1_0_0_1
    = LibRowScatter.addRowsDims 100000 9 1600000 scatter_S100000x9_S1600000x1_S1600000x9_1_0_0_1.wf := rfl

theorem gath9_eq : gather_S100000x9_S1600000x1_S1600000x9_1_0_n_n_0_1_19
    = LibRowGather.rowDims 100000 9 1600000 gather_S100000x9_S1600000x1_S1600000x9_1_0_n_n_0_1_19.wf := rfl

theorem scat64_eq : scatter_S100000x64_S1600000x1_S1600000x64_1_0_0_1
    = LibRowScatter.addRowsDims 100000 64 1600000 scatter_S100000x64_S1600000x1_S1600000x64_1_0_0_1.wf := rfl

theorem gath64_eq : gather_S100000x64_S1600000x1_S1600000x64_1_0_n_n_0_1_164
    = LibRowGather.rowDims 100000 64 1600000 gather_S100000x64_S1600000x1_S1600000x64_1_0_n_n_0_1_164.wf := rfl

/-! ### The first layer -/

/-- The first layer's segment sum of gathered input rows, at an entry: the neighbour sum of the inputs. -/
theorem agg9 (x0 : FVec Ideal S100000x9 .f32) (x1 : IVec S2x1600000 32) (i : Fin 100000) (f : Fin 9) :
    val_main_v13 (F := Ideal) x0 x1 (ix2 i f)
      = nsum (tgtOf (dstCol x1)) (rowOf 100000 (by decide) (srcCol x1)) (fun r f => x0 (ix2 r f)) i f := by
  unfold val_main_v13 val_main_v10 val_main_v11 val_main_cst dstCol srcCol
  rw [scat9_eq, gath9_eq]
  exact segsum_gather_apply (by decide) _ _ _ x0 (val_main_v9 (F := Ideal) x1) (val_main_v12 (F := Ideal) x1) i f

/-- The first layer's divisor, at an entry: the clamped degree of the entry's row. -/
theorem deg9 (x1 : IVec S2x1600000 32) (i : Fin 100000) (f : Fin 9) :
    val_main_v21 (F := Ideal) x1 (ix2 i f) = clampDeg (degVec x1 (ix1 i)) := by
  unfold val_main_v21 val_main_v20
  rw [LibMeanForms.rows_apply (by decide) _ _ (val_main_v19 (F := Ideal) x1) (ix2 i f)]
  rw [val_main_v19_apply, val_main_v18_apply, val_main_cst_3_apply]
  show max (val_main_v17 (F := Ideal) x1 (ix1 i)) (Ideal.ofBits .f32 0x3F800000#32) = _
  rw [LibMeanForms.one_f32]
  rfl

/-- The first layer's mean, at an entry. -/
theorem mean9 (x0 : FVec Ideal S100000x9 .f32) (x1 : IVec S2x1600000 32) (i : Fin 100000) (f : Fin 9) :
    val_main_v22 (F := Ideal) x0 x1 (ix2 i f)
      = Ideal.div (nsum (tgtOf (dstCol x1)) (rowOf 100000 (by decide) (srcCol x1)) (fun r f => x0 (ix2 r f)) i f)
          (clampDeg (degVec x1 (ix1 i))) := by
  rw [val_main_v22_apply, agg9, deg9]
  rfl

/-- The first layer's bias row repeated down the rows, at an entry. -/
theorem bias64 (x3 : FVec Ideal S64 .f32) (i : Fin 100000) (c : Fin 64) :
    val_main_v25 (F := Ideal) x3 (ix2 i c) = x3 (ix1 c) := by
  unfold val_main_v25 val_main_v24
  exact LibColRow.cols_apply (by decide) _ _ x3 (ix2 i c)

theorem lidx23 (i : Fin 100000) (c : Fin 64) (k : Fin 9) : lidx_main_v23 (ix2 i c) k = ix2 i k :=
  funext fun a => Fin.ext (by match a with | ⟨0, _⟩ => rfl | ⟨1, _⟩ => rfl)
theorem ridx23 (i : Fin 100000) (c : Fin 64) (k : Fin 9) : ridx_main_v23 (ix2 i c) k = ix2 k c :=
  funext fun a => Fin.ext (by match a with | ⟨0, _⟩ => rfl | ⟨1, _⟩ => rfl)
theorem lidx27 (i : Fin 100000) (c : Fin 64) (k : Fin 9) : lidx_main_v27 (ix2 i c) k = ix2 i k :=
  funext fun a => Fin.ext (by match a with | ⟨0, _⟩ => rfl | ⟨1, _⟩ => rfl)
theorem ridx27 (i : Fin 100000) (c : Fin 64) (k : Fin 9) : ridx_main_v27 (ix2 i c) k = ix2 k c :=
  funext fun a => Fin.ext (by match a with | ⟨0, _⟩ => rfl | ⟨1, _⟩ => rfl)

/-- The mean's projection by the first weight matrix, at an entry. -/
theorem dot23 (x0 : FVec Ideal S100000x9 .f32) (x1 : IVec S2x1600000 32) (x2 : FVec Ideal S9x64 .f32)
    (i : Fin 100000) (c : Fin 64) :
    val_main_v23 (F := Ideal) x0 x1 x2 (ix2 i c)
      = ∑ f : Fin 9, Ideal.div (nsum (tgtOf (dstCol x1)) (rowOf 100000 (by decide) (srcCol x1))
            (fun r f => x0 (ix2 r f)) i f) (clampDeg (degVec x1 (ix1 i))) * x2 (ix2 f c) := by
  rw [val_main_v23_apply]
  refine Finset.sum_congr rfl fun k _ => ?_
  rw [lidx23, ridx23, mean9]

/-- The node's own row projected by the second weight matrix, at an entry. -/
theorem dot27 (x0 : FVec Ideal S100000x9 .f32) (x4 : FVec Ideal S9x64 .f32) (i : Fin 100000) (c : Fin 64) :
    val_main_v27 (F := Ideal) x0 x4 (ix2 i c) = ∑ f : Fin 9, x0 (ix2 i f) * x4 (ix2 f c) := by
  rw [val_main_v27_apply]
  refine Finset.sum_congr rfl fun k _ => ?_
  rw [lidx27, ridx27]

/-- The first layer before the clamp, at an entry. -/
theorem pre1 (x0 : FVec Ideal S100000x9 .f32) (x1 : IVec S2x1600000 32) (x2 : FVec Ideal S9x64 .f32)
    (x3 : FVec Ideal S64 .f32) (x4 : FVec Ideal S9x64 .f32) (i : Fin 100000) (c : Fin 64) :
    val_main_v28 (F := Ideal) x0 x1 x2 x3 x4 (ix2 i c)
      = (∑ f : Fin 9, Ideal.div (nsum (tgtOf (dstCol x1)) (rowOf 100000 (by decide) (srcCol x1))
            (fun r f => x0 (ix2 r f)) i f) (clampDeg (degVec x1 (ix1 i))) * x2 (ix2 f c))
          + x3 (ix1 c) + ∑ f : Fin 9, x0 (ix2 i f) * x4 (ix2 f c) := by
  rw [val_main_v28_apply, val_main_v26_apply, dot23, dot27, bias64]
  rfl

/-- THE HIDDEN LAYER: the program's clamped first layer, at an entry, is the specification's hidden entry. -/
theorem hid_value (x0 : FVec Ideal S100000x9 .f32) (x1 : IVec S2x1600000 32) (x2 : FVec Ideal S9x64 .f32)
    (x3 : FVec Ideal S64 .f32) (x4 : FVec Ideal S9x64 .f32) (i : Fin 100000) (c : Fin 64) :
    val_main_v29 (F := Ideal) x0 x1 x2 x3 x4 (ix2 i c)
      = SageSpec.hid (tgtOf (dstCol x1)) (rowOf 100000 (by decide) (srcCol x1)) (fun i => clampDeg (degVec x1 (ix1 i)))
          (fun i f => x0 (ix2 i f)) (fun f c => x2 (ix2 f c)) (fun c => x3 (ix1 c)) (fun f c => x4 (ix2 f c)) i c := by
  rw [val_main_v29_apply, pre1, val_main_call0_v0_apply, val_main_call0_cst_apply]
  show max _ (Ideal.ofBits .f32 0x00000000#32) = _
  rw [Ideal.ofBits_zero_f32]
  unfold SageSpec.hid
  rfl

/-! ### The second layer: the same index columns and the same degrees, under other names -/

theorem v39_eq (x1 : IVec S2x1600000 32) : val_main_v39 (F := Ideal) x1 = val_main_v9 (F := Ideal) x1 := rfl
theorem v42_eq (x1 : IVec S2x1600000 32) : val_main_v42 (F := Ideal) x1 = val_main_v12 (F := Ideal) x1 := rfl
theorem v47_eq (x1 : IVec S2x1600000 32) : val_main_v47 (F := Ideal) x1 = val_main_v17 (F := Ideal) x1 := rfl

/-- The second layer's segment sum of gathered hidden rows, at an entry: the neighbour sum of the hidden rows. -/
theorem agg64 (x0 : FVec Ideal S100000x9 .f32) (x1 : IVec S2x1600000 32) (x2 : FVec Ideal S9x64 .f32)
    (x3 : FVec Ideal S64 .f32) (x4 : FVec Ideal S9x64 .f32) (i : Fin 100000) (c : Fin 64) :
    val_main_v43 (F := Ideal) x0 x1 x2 x3 x4 (ix2 i c)
      = nsum (tgtOf (dstCol x1)) (rowOf 100000 (by decide) (srcCol x1))
          (fun r c => val_main_v29 (F := Ideal) x0 x1 x2 x3 x4 (ix2 r c)) i c := by
  unfold val_main_v43 val_main_v40 val_main_v41 val_main_cst_6 dstCol srcCol
  rw [scat64_eq, gath64_eq, v39_eq, v42_eq]
  exact segsum_gather_apply (by decide) _ _ _ (val_main_v29 (F := Ideal) x0 x1 x2 x3 x4)
    (val_main_v9 (F := Ideal) x1) (val_main_v12 (F := Ideal) x1) i c

/-- The second layer's divisor, at an entry: the same clamped degree. -/
theorem deg64 (x1 : IVec S2x1600000 32) (i : Fin 100000) (c : Fin 64) :
    val_main_v51 (F := Ideal) x1 (ix2 i c) = clampDeg (degVec x1 (ix1 i)) := by
  unfold val_main_v51 val_main_v50
  rw [LibMeanForms.rows_apply (by decide) _ _ (val_main_v49 (F := Ideal) x1) (ix2 i c)]
  rw [val_main_v49_apply, val_main_v48_apply, val_main_cst_9_apply, v47_eq]
  show max (val_main_v17 (F := Ideal) x1 (ix1 i)) (Ideal.ofBits .f32 0x3F800000#32) = _
  rw [LibMeanForms.one_f32]
  rfl

/-- The second layer's mean, at an entry. -/
theorem mean64 (x0 : FVec Ideal S100000x9 .f32) (x1 : IVec S2x1600000 32) (x2 : FVec Ideal S9x64 .f32)
    (x3 : FVec Ideal S64 .f32) (x4 : FVec Ideal S9x64 .f32) (i : Fin 100000) (c : Fin 64) :
    val_main_v52 (F := Ideal) x0 x1 x2 x3 x4 (ix2 i c)
      = Ideal.div (nsum (tgtOf (dstCol x1)) (rowOf 100000 (by decide) (srcCol x1))
            (fun r c => val_main_v29 (F := Ideal) x0 x1 x2 x3 x4 (ix2 r c)) i c) (clampDeg (degVec x1 (ix1 i))) := by
  rw [val_main_v52_apply, agg64, deg64]
  rfl

/-- The second layer's bias row repeated down the rows, at an entry. -/
theorem bias32 (x6 : FVec Ideal S32 .f32) (i : Fin 100000) (o : Fin 32) :
    val_main_v55 (F := Ideal) x6 (ix2 i o) = x6 (ix1 o) := by
  unfold val_main_v55 val_main_v54
  exact LibColRow.cols_apply (by decide) _ _ x6 (ix2 i o)

theorem lidx53 (i : Fin 100000) (o : Fin 32) (k : Fin 64) : lidx_main_v53 (ix2 i o) k = ix2 i k :=
  funext fun a => Fin.ext (by match a with | ⟨0, _⟩ => rfl | ⟨1, _⟩ => rfl)
theorem ridx53 (i : Fin 100000) (o : Fin 32) (k : Fin 64) : ridx_main_v53 (ix2 i o) k = ix2 k o :=
  funext fun a => Fin.ext (by match a with | ⟨0, _⟩ => rfl | ⟨1, _⟩ => rfl)
theorem lidx57 (i : Fin 100000) (o : Fin 32) (k : Fin 64) : lidx_main_v57 (ix2 i o) k = ix2 i k :=
  funext fun a => Fin.ext (by match a with | ⟨0, _⟩ => rfl | ⟨1, _⟩ => rfl)
theorem ridx57 (i : Fin 100000) (o : Fin 32) (k : Fin 64) : ridx_main_v57 (ix2 i o) k = ix2 k o :=
  funext fun a => Fin.ext (by match a with | ⟨0, _⟩ => rfl | ⟨1, _⟩ => rfl)

/-- The program's hidden rows, as a row field, are the specification's hidden layer. -/
theorem hid_field (x0 : FVec Ideal S100000x9 .f32) (x1 : IVec S2x1600000 32) (x2 : FVec Ideal S9x64 .f32)
    (x3 : FVec Ideal S64 .f32) (x4 : FVec Ideal S9x64 .f32) :
    (fun (r : Fin 100000) (c : Fin 64) => val_main_v29 (F := Ideal) x0 x1 x2 x3 x4 (ix2 r c))
      = SageSpec.hid (tgtOf (dstCol x1)) (rowOf 100000 (by decide) (srcCol x1)) (fun i => clampDeg (degVec x1 (ix1 i)))
          (fun i f => x0 (ix2 i f)) (fun f c => x2 (ix2 f c)) (fun c => x3 (ix1 c)) (fun f c => x4 (ix2 f c)) :=
  funext fun r => funext fun c => hid_value x0 x1 x2 x3 x4 r c

/-- The mean of the hidden rows projected by the third weight matrix, at an entry. -/
theorem dot53 (x0 : FVec Ideal S100000x9 .f32) (x1 : IVec S2x1600000 32) (x2 : FVec Ideal S9x64 .f32)
    (x3 : FVec Ideal S64 .f32) (x4 : FVec Ideal S9x64 .f32) (x5 : FVec Ideal S64x32 .f32) (i : Fin 100000) (o : Fin 32) :
    val_main_v53 (F := Ideal) x0 x1 x2 x3 x4 x5 (ix2 i o)
      = ∑ c : Fin 64, Ideal.div (nsum (tgtOf (dstCol x1)) (rowOf 100000 (by decide) (srcCol x1))
            (SageSpec.hid (tgtOf (dstCol x1)) (rowOf 100000 (by decide) (srcCol x1)) (fun i => clampDeg (degVec x1 (ix1 i)))
              (fun i f => x0 (ix2 i f)) (fun f c => x2 (ix2 f c)) (fun c => x3 (ix1 c)) (fun f c => x4 (ix2 f c))) i c)
          (clampDeg (degVec x1 (ix1 i))) * x5 (ix2 c o) := by
  rw [val_main_v53_apply]
  refine Finset.sum_congr rfl fun k _ => ?_
  rw [lidx53, ridx53, mean64, hid_field]

/-- The node's own hidden row projected by the fourth weight matrix, at an entry. -/
theorem dot57 (x0 : FVec Ideal S100000x9 .f32) (x1 : IVec S2x1600000 32) (x2 : FVec Ideal S9x64 .f32)
    (x3 : FVec Ideal S64 .f32) (x4 : FVec Ideal S9x64 .f32) (x7 : FVec Ideal S64x32 .f32) (i : Fin 100000) (o : Fin 32) :
    val_main_v57 (F := Ideal) x0 x1 x2 x3 x4 x7 (ix2 i o)
      = ∑ c : Fin 64, SageSpec.hid (tgtOf (dstCol x1)) (rowOf 100000 (by decide) (srcCol x1))
            (fun i => clampDeg (degVec x1 (ix1 i)))
            (fun i f => x0 (ix2 i f)) (fun f c => x2 (ix2 f c)) (fun c => x3 (ix1 c)) (fun f c => x4 (ix2 f c)) i c
          * x7 (ix2 c o) := by
  rw [val_main_v57_apply]
  refine Finset.sum_congr rfl fun k _ => ?_
  rw [lidx57, ridx57, hid_value]

/-- THE OUTPUT LAYER: the program's last stage, at an entry, is the specification's output entry. -/
theorem out_value (x0 : FVec Ideal S100000x9 .f32) (x1 : IVec S2x1600000 32) (x2 : FVec Ideal S9x64 .f32)
    (x3 : FVec Ideal S64 .f32) (x4 : FVec Ideal S9x64 .f32) (x5 : FVec Ideal S64x32 .f32) (x6 : FVec Ideal S32 .f32)
    (x7 : FVec Ideal S64x32 .f32) (i : Fin 100000) (o : Fin 32) :
    val_main_v58 (F := Ideal) x0 x1 x2 x3 x4 x5 x6 x7 (ix2 i o)
      = SageSpec.out (tgtOf (dstCol x1)) (rowOf 100000 (by decide) (srcCol x1)) (fun i => clampDeg (degVec x1 (ix1 i)))
        (SageSpec.hid (tgtOf (dstCol x1)) (rowOf 100000 (by decide) (srcCol x1)) (fun i => clampDeg (degVec x1 (ix1 i)))
          (fun i f => x0 (ix2 i f)) (fun f c => x2 (ix2 f c)) (fun c => x3 (ix1 c)) (fun f c => x4 (ix2 f c)))
        (fun c o => x5 (ix2 c o)) (fun o => x6 (ix1 o)) (fun c o => x7 (ix2 c o)) i o := by
  rw [val_main_v58_apply, val_main_v56_apply, dot53, dot57, bias32]
  unfold SageSpec.out
  rfl

/-- THE REFERENCE'S RESULT, entry by entry, is the specification's output layer over its hidden layer. -/
theorem ref_value (x0 : FVec Ideal S100000x9 .f32) (x1 : IVec S2x1600000 32) (x2 : FVec Ideal S9x64 .f32)
    (x3 : FVec Ideal S64 .f32) (x4 : FVec Ideal S9x64 .f32) (x5 : FVec Ideal S64x32 .f32) (x6 : FVec Ideal S32 .f32)
    (x7 : FVec Ideal S64x32 .f32) :
    val_main_v58 (F := Ideal) x0 x1 x2 x3 x4 x5 x6 x7 = fun j =>
      SageSpec.out (tgtOf (dstCol x1)) (rowOf 100000 (by decide) (srcCol x1)) (fun i => clampDeg (degVec x1 (ix1 i)))
        (SageSpec.hid (tgtOf (dstCol x1)) (rowOf 100000 (by decide) (srcCol x1)) (fun i => clampDeg (degVec x1 (ix1 i)))
          (fun i f => x0 (ix2 i f)) (fun f c => x2 (ix2 f c)) (fun c => x3 (ix1 c)) (fun f c => x4 (ix2 f c)))
        (fun c o => x5 (ix2 c o)) (fun o => x6 (ix1 o)) (fun c o => x7 (ix2 c o)) (j 0) (j 1) := by
  funext j
  exact (congrArg (val_main_v58 (F := Ideal) x0 x1 x2 x3 x4 x5 x6 x7) (eq_ix2 j)).trans
    (out_value x0 x1 x2 x3 x4 x5 x6 x7 (j 0) (j 1))

end Cert.ReferenceIdeal.Sage

end
-- ==== Proof.KernelRun.lean ====
/-
  The idealized kernel's run, with its result named.

  @main is four segments: host operations, the first pallas_call, host operations, the second pallas_call. The launch
  over these segments ends with every unscoped buffer at the last boundary's contents; reading the result buffer there,
  beside the eight argument buffers, gives: every weakly fair execution terminates, the result array holds the last
  boundary's contents at the result buffer, and the arguments are as launched.
-/
import proofs.«154276_j32787780338275_2_alg».proof.Proof.Gen.KernelIdeal.Frame

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result buffer read at the contents the second pallas_call leaves. -/
theorem run_value : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Sage

end
-- ==== Proof.KernelPayloads.lean ====
/-
  The two kernel bodies, read at an entry.

  First body, per block of 5000 nodes: with a = neighbour sums [5000, 9], s = reciprocal clamped degrees [5000, 1],
  x = the nodes' inputs, hidden(p, c) = max ((Σ_f (a p f · s p) · W1l f c + Σ_f x p f · W1r f c) + b1 c) 0, and the
  two stores are hidden · W2l and hidden · W2r. Narrowing an operand to bf16 is the identity on extended reals, and a
  matrix product into a zero accumulator is a plain sum over the contracted axis.
  Second body: z(p, q) = a p q · s p + b2 q + w p q.
-/
import proofs.«154276_j32787780338275_2_alg».proof.Proof.Gen.KernelIdeal.Skeleton
import proofs.«154276_j32787780338275_2_alg».proof.Proof.LibDenseLayer
import proofs.«154276_j32787780338275_2_alg».proof.Proof.LibColRow
import proofs.«154276_j32787780338275_2_alg».proof.Proof.LibRowOps
import Idealize.ShloMosaic.Lib.ValueIdx
import Idealize.ShloMosaic.Lib.Pipeline.Value
import Idealize.ShloMosaic.PureOps.Ideal.Laws

noncomputable section

open scoped BigOperators

namespace Cert.KernelIdeal.Sage

open Cert.KernelIdeal Cert.KernelIdeal.Gen Idealize.ShloMosaic Idealize.ShloMosaic.ValueIdx

/-- The [5000, 9] × [9, 64] product into zeros, at an entry. -/
theorem mm9_apply {φ₁ φ₂ : FTy} (l : FVec Ideal S5000x9 φ₁) (r : FVec Ideal S9x64 φ₂) (j : S5000x64.Idx) :
    matmul (F := Ideal) dot_S5000x9_S9x64_S5000x64_1_0_0_1_n_n none l r (constant S5000x64 .f32 0x00000000#32) j
      = ∑ k : Fin 9, l (ix2 (j 0) k) * r (ix2 k (j 1)) :=
  LibDenseLayer.tc_apply Facts₀.dot_S5000x9_S9x64_S5000x64_1_0_0_1_n_n_wf l r j

/-- The [5000, 64] × [64, 32] product into zeros, at an entry. -/
theorem mm64_apply {φ₁ φ₂ : FTy} (l : FVec Ideal S5000x64 φ₁) (r : FVec Ideal S64x32 φ₂) (j : S5000x32.Idx) :
    matmul (F := Ideal) dot_S5000x64_S64x32_S5000x32_1_0_0_1_n_n none l r (constant S5000x32 .f32 0x00000000#32) j
      = ∑ k : Fin 64, l (ix2 (j 0) k) * r (ix2 k (j 1)) :=
  LibDenseLayer.tc_apply Facts₀.dot_S5000x64_S64x32_S5000x32_1_0_0_1_n_n_wf l r j

/-- The hidden block at `(p, c)`. -/
theorem pay_hidden (v0 : Vec Ideal S5000x9 .f32) (v2 : Vec Ideal S5000x1 .f32) (v7 : Vec Ideal S5000x9 .f32)
    (v9 v11 : Vec Ideal S9x64 .f32) (v16 : Vec Ideal S1x64 .f32) (p : Fin 5000) (c : Fin 64) :
    k0_pay1 v0 v2 v7 v9 v11 v16 (ix2 p c)
      = max (((∑ f : Fin 9, (v0 (ix2 p f) * v2 (ix2 p (0 : Fin 1))) * v9 (ix2 f c))
          + ∑ f : Fin 9, v7 (ix2 p f) * v11 (ix2 f c)) + v16 (ix2 (0 : Fin 1) c)) 0 := by
  unfold k0_pay1
  rw [truncf_apply, maximumf_apply, addf_apply, addf_apply, mm9_apply, mm9_apply]
  refine congrArg₂ max (congrArg₂ (· + ·) (congrArg₂ (· + ·) (Finset.sum_congr rfl fun f _ => ?_)
    (Finset.sum_congr rfl fun f _ => ?_)) ?_) ?_
  · rw [truncf_apply, truncf_apply, mulf_apply, shapeCast_self, shapeCast_self]
    rw [LibColRow.broadcastTo_col_apply v2 _ (by decide) p f]
  · rw [truncf_apply, truncf_apply]
  · rw [shapeCast_self, LibRowOps.broadcastTo_row_apply]
  · rw [broadcast_apply]
    exact Ideal.ofBits_zero_f32

/-- The first store at `(p, q)`: the hidden row through W2l. -/
theorem pay_g (v0 : Vec Ideal S5000x9 .f32) (v2 : Vec Ideal S5000x1 .f32) (v7 : Vec Ideal S5000x9 .f32)
    (v9 v11 : Vec Ideal S9x64 .f32) (v16 : Vec Ideal S1x64 .f32) (v23 : Vec Ideal S64x32 .f32) (p : Fin 5000) (q : Fin 32) :
    k0_pay2 v0 v2 v7 v9 v11 v16 v23 (ix2 p q)
      = ∑ c : Fin 64, k0_pay1 v0 v2 v7 v9 v11 v16 (ix2 p c) * v23 (ix2 c q) := by
  unfold k0_pay2
  rw [mm64_apply]
  refine Finset.sum_congr rfl fun c _ => ?_
  rw [truncf_apply]

/-- The second store at `(p, q)`: the hidden row through W2r. -/
theorem pay_self (v0 : Vec Ideal S5000x9 .f32) (v2 : Vec Ideal S5000x1 .f32) (v7 : Vec Ideal S5000x9 .f32)
    (v9 v11 : Vec Ideal S9x64 .f32) (v16 : Vec Ideal S1x64 .f32) (v25 : Vec Ideal S64x32 .f32) (p : Fin 5000) (q : Fin 32) :
    k0_pay3 v0 v2 v7 v9 v11 v16 v25 (ix2 p q)
      = ∑ c : Fin 64, k0_pay1 v0 v2 v7 v9 v11 v16 (ix2 p c) * v25 (ix2 c q) := by
  unfold k0_pay3
  rw [mm64_apply]
  refine Finset.sum_congr rfl fun c _ => ?_
  rw [truncf_apply]

/-- The combining body's store at `(p, q)`. -/
theorem pay_combine (v0 : Vec Ideal S5000x32 .f32) (v2 : Vec Ideal S5000x1 .f32) (v6 : Vec Ideal S1x32 .f32)
    (v10 : Vec Ideal S5000x32 .f32) (p : Fin 5000) (q : Fin 32) :
    k1_pay1 v0 v2 v6 v10 (ix2 p q) = (v0 (ix2 p q) * v2 (ix2 p (0 : Fin 1)) + v6 (ix2 (0 : Fin 1) q)) + v10 (ix2 p q) := by
  unfold k1_pay1
  rw [addf_apply, addf_apply, mulf_apply, shapeCast_self, shapeCast_self, shapeCast_self, shapeCast_self]
  rw [LibColRow.broadcastTo_col_apply v2 _ (by decide) p q, LibRowOps.broadcastTo_row_apply]

end Cert.KernelIdeal.Sage

end
-- ==== Proof.KernelRegions.lean ====
/-
  Each pallas_call's output array after its run, as one function of the arrays it found.

  Both calls walk 20 blocks of 5000 consecutive nodes; an input that is per-node is fetched by the same block index as
  the outputs, a weight or bias is fetched whole at every point. So block t of an output is the body's store of rows
  5000·t … 5000·t + 4999 of the inputs, the 20 blocks tile the node axis, and the array after the run is the body's
  formula read at every row:
    first call:   g = hidden · W2l and w = hidden · W2r, hidden(i, c) = max ((Σ_f (a i f · s i) · W1l f c + Σ_f x i f · W1r f c) + b1 c) 0;
    second call:  z(i, q) = (a i q · s i + b2 q) + w i q.
-/
import proofs.«154276_j32787780338275_2_alg».proof.Proof.Gen.KernelIdeal.Frame
import proofs.«154276_j32787780338275_2_alg».proof.Proof.KernelPayloads

set_option maxRecDepth 16384

noncomputable section

open scoped BigOperators

namespace Cert.KernelIdeal.Sage

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-! ## The two formulas over whole arrays -/

/-- The hidden layer as the first call computes it, from the neighbour sums `agg`, the reciprocal degrees `inv` (a
    column), the inputs, the two weight matrices and the bias row. -/
def hidArr (agg : S100000x9.Idx → EReal) (inv : S100000x1.Idx → EReal) (x : S100000x9.Idx → EReal)
    (W1l : S9x64.Idx → EReal) (b1 : S1x64.Idx → EReal) (W1r : S9x64.Idx → EReal) (i : Fin 100000) (c : Fin 64) : EReal :=
  max (((∑ f : Fin 9, (agg (ix2 i f) * inv (ix2 i (0 : Fin 1))) * W1l (ix2 f c))
    + ∑ f : Fin 9, x (ix2 i f) * W1r (ix2 f c)) + b1 (ix2 (0 : Fin 1) c)) 0

/-- A row field through a [64, 32] matrix. -/
def projArr (h : Fin 100000 → Fin 64 → EReal) (W : S64x32.Idx → EReal) : S100000x32.Idx → EReal :=
  fun i => ∑ c : Fin 64, h (i 0) c * W (ix2 c (i 1))

/-- The second call's formula. -/
def combineArr (agg : S100000x32.Idx → EReal) (inv : S100000x1.Idx → EReal) (w : S100000x32.Idx → EReal)
    (b2 : S1x32.Idx → EReal) : S100000x32.Idx → EReal :=
  fun i => (agg i * inv (ix2 (i 0) (0 : Fin 1)) + b2 (ix2 (0 : Fin 1) (i 1))) + w i

/-! ## One block, over variables of the literal types -/

/-- The hidden block of rows read through `e0`, `e1`, `e2`, all landing on the row `r p`. -/
theorem hidden_block (agg : S100000x9.Idx → EReal) (inv : S100000x1.Idx → EReal) (x : S100000x9.Idx → EReal)
    (W1l : S9x64.Idx → EReal) (b1 : S1x64.Idx → EReal) (W1r : S9x64.Idx → EReal)
    (e0 e2 : S5000x9.Idx → S100000x9.Idx) (e1 : S5000x1.Idx → S100000x1.Idx) (r : Fin 5000 → Fin 100000)
    (h0 : ∀ p f, e0 (ix2 p f) = ix2 (r p) f) (h1 : ∀ p, e1 (ix2 p (0 : Fin 1)) = ix2 (r p) (0 : Fin 1))
    (h2 : ∀ p f, e2 (ix2 p f) = ix2 (r p) f) (p : Fin 5000) (c : Fin 64) :
    k0_pay1 (F := Ideal) (fun y => agg (e0 y)) (fun y => inv (e1 y)) (fun y => x (e2 y)) W1l W1r b1 (ix2 p c)
      = hidArr agg inv x W1l b1 W1r (r p) c := by
  rw [pay_hidden]
  unfold hidArr
  simp only [h0, h1, h2]

/-- A block of the first output: rows `r p`, columns unchanged. -/
theorem g_block (agg : S100000x9.Idx → EReal) (inv : S100000x1.Idx → EReal) (x : S100000x9.Idx → EReal)
    (W1l : S9x64.Idx → EReal) (b1 : S1x64.Idx → EReal) (W1r : S9x64.Idx → EReal) (W2 : S64x32.Idx → EReal)
    (e0 e2 : S5000x9.Idx → S100000x9.Idx) (e1 : S5000x1.Idx → S100000x1.Idx) (e8 : S5000x32.Idx → S100000x32.Idx)
    (e3 e5 : S9x64.Idx → S9x64.Idx) (e4 : S1x64.Idx → S1x64.Idx) (e6 : S64x32.Idx → S64x32.Idx)
    (r : Fin 5000 → Fin 100000)
    (h0 : ∀ p f, e0 (ix2 p f) = ix2 (r p) f) (h1 : ∀ p, e1 (ix2 p (0 : Fin 1)) = ix2 (r p) (0 : Fin 1))
    (h2 : ∀ p f, e2 (ix2 p f) = ix2 (r p) f) (h8 : ∀ p q, e8 (ix2 p q) = ix2 (r p) q)
    (h3 : ∀ y, e3 y = y) (h4 : ∀ y, e4 y = y) (h5 : ∀ y, e5 y = y) (h6 : ∀ y, e6 y = y) :
    k0_pay2 (F := Ideal) (fun y => agg (e0 y)) (fun y => inv (e1 y)) (fun y => x (e2 y)) (fun y => W1l (e3 y))
        (fun y => W1r (e5 y)) (fun y => b1 (e4 y)) (fun y => W2 (e6 y))
      = fun y => projArr (hidArr agg inv x W1l b1 W1r) W2 (e8 y) := by
  simp only [h3, h4, h5, h6]
  funext y
  obtain ⟨p, q, rfl⟩ : ∃ (p : Fin 5000) (q : Fin 32), y = ix2 p q := ⟨y 0, y 1, eq_ix2 y⟩
  rw [pay_g, h8]
  unfold projArr
  refine Finset.sum_congr rfl fun c _ => ?_
  rw [hidden_block agg inv x W1l b1 W1r e0 e2 e1 r h0 h1 h2 p c]

/-- A block of the second output of the first call. -/
theorem self_block (agg : S100000x9.Idx → EReal) (inv : S100000x1.Idx → EReal) (x : S100000x9.Idx → EReal)
    (W1l : S9x64.Idx → EReal) (b1 : S1x64.Idx → EReal) (W1r : S9x64.Idx → EReal) (W2 : S64x32.Idx → EReal)
    (e0 e2 : S5000x9.Idx → S100000x9.Idx) (e1 : S5000x1.Idx → S100000x1.Idx) (e8 : S5000x32.Idx → S100000x32.Idx)
    (e3 e5 : S9x64.Idx → S9x64.Idx) (e4 : S1x64.Idx → S1x64.Idx) (e6 : S64x32.Idx → S64x32.Idx)
    (r : Fin 5000 → Fin 100000)
    (h0 : ∀ p f, e0 (ix2 p f) = ix2 (r p) f) (h1 : ∀ p, e1 (ix2 p (0 : Fin 1)) = ix2 (r p) (0 : Fin 1))
    (h2 : ∀ p f, e2 (ix2 p f) = ix2 (r p) f) (h8 : ∀ p q, e8 (ix2 p q) = ix2 (r p) q)
    (h3 : ∀ y, e3 y = y) (h4 : ∀ y, e4 y = y) (h5 : ∀ y, e5 y = y) (h6 : ∀ y, e6 y = y) :
    k0_pay3 (F := Ideal) (fun y => agg (e0 y)) (fun y => inv (e1 y)) (fun y => x (e2 y)) (fun y => W1l (e3 y))
        (fun y => W1r (e5 y)) (fun y => b1 (e4 y)) (fun y => W2 (e6 y))
      = fun y => projArr (hidArr agg inv x W1l b1 W1r) W2 (e8 y) := by
  simp only [h3, h4, h5, h6]
  funext y
  obtain ⟨p, q, rfl⟩ : ∃ (p : Fin 5000) (q : Fin 32), y = ix2 p q := ⟨y 0, y 1, eq_ix2 y⟩
  rw [pay_self, h8]
  unfold projArr
  refine Finset.sum_congr rfl fun c _ => ?_
  rw [hidden_block agg inv x W1l b1 W1r e0 e2 e1 r h0 h1 h2 p c]

/-- A block of the second call's output. -/
theorem combine_block (agg : S100000x32.Idx → EReal) (inv : S100000x1.Idx → EReal) (w : S100000x32.Idx → EReal)
    (b2 : S1x32.Idx → EReal)
    (e0 e2 e4 : S5000x32.Idx → S100000x32.Idx) (e1 : S5000x1.Idx → S100000x1.Idx) (e3 : S1x32.Idx → S1x32.Idx)
    (r : Fin 5000 → Fin 100000)
    (h0 : ∀ p q, e0 (ix2 p q) = ix2 (r p) q) (h1 : ∀ p, e1 (ix2 p (0 : Fin 1)) = ix2 (r p) (0 : Fin 1))
    (h2 : ∀ p q, e2 (ix2 p q) = ix2 (r p) q) (h4 : ∀ p q, e4 (ix2 p q) = ix2 (r p) q) (h3 : ∀ y, e3 y = y) :
    k1_pay1 (F := Ideal) (fun y => agg (e0 y)) (fun y => inv (e1 y)) (fun y => b2 (e3 y)) (fun y => w (e2 y))
      = fun y => combineArr agg inv w b2 (e4 y) := by
  simp only [h3]
  funext y
  obtain ⟨p, q, rfl⟩ : ∃ (p : Fin 5000) (q : Fin 32), y = ix2 p q := ⟨y 0, y 1, eq_ix2 y⟩
  rw [pay_combine, h0, h1, h2, h4]
  rfl

/-! ## Where a block sits: the printed index maps, decided over the grid -/

theorem hz : (![0, 0] : Fin 2 → Nat) = fun _ => 0 := funext fun a => by fin_cases a <;> rfl

/-- Row `p` of block `t`. -/
def blockRow (t : ℕ) (ht : t < 20) (p : Fin 5000) : Fin 100000 := ⟨t * 5000 + p.val, by have := p.isLt; omega⟩

/-- First call: the per-node windows (0, 1, 2, 8, 9) move with the point along the node axis, the weight and bias
    windows (3 … 7) stay at the origin. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Second call: windows 0, 1, 2, 4 move with the point, the bias window 3 stays at the origin. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b))

/-! ## The second call -/

/-- What point `t` of the second call writes back is block `t` of its formula over the arrays it found. -/
theorem flushed1 (c : Dev nD) (t : Fin cfg1.N) :
    (dat1 (F := Ideal) V c).flushed 4 t = ((cfg1.win 4).blk t).view.read (Elt Ideal)
      (combineArr (V c main_v34) (V c main_v12) (V c main_v24_1) (V c main_v35)) := by
  show (cfg1.win 4).cut (grid1.coords t) ((dat1 V c).after 4 t) = _
  rw [after1_4]
  unfold out1_4
  rw [View.canon_unit_zero hz]
  simp only [View.ld_unit_zero (S := S5000x32) hz, View.ld_unit_zero (S := S5000x1) hz, View.ld_unit_zero (S := S1x32) hz]
  have ht : t.val < 20 := lt_of_lt_of_eq t.isLt N_1
  obtain ⟨a0, a1, b0, b1, c0, c1, d0, d1, e0, e1⟩ := idx_facts1 t
  exact combine_block (V c main_v34) (V c main_v12) (V c main_v24_1) (V c main_v35)
    (fun y => ((cfg1.win 0).blk t).view.emb y) (fun y => ((cfg1.win 2).blk t).view.emb y)
    (fun y => ((cfg1.win 4).blk t).view.emb y) (fun y => ((cfg1.win 1).blk t).view.emb y)
    (fun y => ((cfg1.win 3).blk t).view.emb y) (blockRow t.val ht)
    (fun p q => funext fun a => Fin.ext (by
      match a with
      | ⟨0, _⟩ => show win1_0.index t (0 : Fin 2) * 5000 + 1 * p.val = t.val * 5000 + p.val; omega
      | ⟨1, _⟩ => show win1_0.index t (1 : Fin 2) * 32 + 1 * q.val = q.val; omega))
    (fun p => funext fun a => Fin.ext (by
      match a with
      | ⟨0, _⟩ => show win1_1.index t (0 : Fin 2) * 5000 + 1 * p.val = t.val * 5000 + p.val; omega
      | ⟨1, _⟩ => show win1_1.index t (1 : Fin 2) * 1 + 1 * 0 = 0; omega))
    (fun p q => funext fun a => Fin.ext (by
      match a with
      | ⟨0, _⟩ => show win1_2.index t (0 : Fin 2) * 5000 + 1 * p.val = t.val * 5000 + p.val; omega
      | ⟨1, _⟩ => show win1_2.index t (1 : Fin 2) * 32 + 1 * q.val = q.val; omega))
    (fun p q => funext fun a => Fin.ext (by
      match a with
      | ⟨0, _⟩ => show win1_4.index t (0 : Fin 2) * 5000 + 1 * p.val = t.val * 5000 + p.val; omega
      | ⟨1, _⟩ => show win1_4.index t (1 : Fin 2) * 32 + 1 * q.val = q.val; omega))
    (fun y => funext fun a => Fin.ext (by
      match a with
      | ⟨0, _⟩ => show win1_3.index t (0 : Fin 2) * 1 + 1 * (y 0).val = (y 0).val; omega
      | ⟨1, _⟩ => show win1_3.index t (1 : Fin 2) * 32 + 1 * (y 1).val = (y 1).val; omega))

/-- An index of the result array is in point `t`'s block iff each coordinate is in the block's range. -/
theorem mem_blk1 (t : Fin cfg1.N) (i : S100000x32.Idx) :
    i ∈ ((cfg1.win 4).blk t).view.set ↔ ∀ a : Fin 2, win1_4.index t a * S5000x32.size a ≤ (i a).val
      ∧ (i a).val < win1_4.index t a * S5000x32.size a + S5000x32.size a := by
  show i ∈ ((View.whole main_v36).slice (win1_4.rect t)).set ↔ _
  rw [View.set_slice_whole, Rect.mem_set_unit]
  exact Iff.rfl

/-- Every index of the result array lies in the block of the point its row divided by 5000 names. -/
theorem cover1 (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  obtain ⟨t, ht⟩ : ∃ t : Fin cfg1.N, t.val = (i 0).val / 5000 :=
    ⟨⟨(i 0).val / 5000, lt_of_lt_of_eq (by omega) N_1.symm⟩, rfl⟩
  obtain ⟨-, -, -, -, -, -, -, -, e0, e1⟩ := idx_facts1 t
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 32 ≤ (i 1).val ∧ (i 1).val < win1_4.index t (1 : Fin 2) * 32 + 32
    omega

/-- THE SECOND CALL'S RESULT ARRAY after its run. -/
theorem region1_z (c : Dev nD) :
    (dat1 (F := Ideal) V c).arrAt 4 cfg1.N = combineArr (V c main_v34) (V c main_v12) (V c main_v24_1) (V c main_v35) :=
  (dat1 V c).arrAt_eq_of_cover 4 _ (fun t _ => flushed1 V c t) cover1

/-! ## The first call -/

/-- What point `t` of the first call writes back to window 8 is block `t` of the hidden rows through its matrix. -/
theorem flushed0_8 (c : Dev nD) (t : Fin cfg0.N) :
    (dat0 (F := Ideal) V c).flushed 8 t = ((cfg0.win 8).blk t).view.read (Elt Ideal)
      (projArr (hidArr (V c main_v22) (V c main_v12) (V c main_arg0) (V c main_arg2) (V c main_v23) (V c main_arg4))
        (V c main_arg5)) := by
  show (cfg0.win 8).cut (grid0.coords t) ((dat0 V c).after 8 t) = _
  rw [after0_8]
  unfold out0_8
  rw [View.canon_unit_zero hz]
  simp only [View.ld_unit_zero (S := S5000x9) hz, View.ld_unit_zero (S := S5000x1) hz, View.ld_unit_zero (S := S9x64) hz,
    View.ld_unit_zero (S := S1x64) hz, View.ld_unit_zero (S := S64x32) hz]
  have ht : t.val < 20 := lt_of_lt_of_eq t.isLt N_0
  obtain ⟨a0, a1, b0, b1, c0, c1, d0, d1, f0, f1, g0, g1, k0, k1, l0, l1, m0, m1, n0, n1⟩ := idx_facts0 t
  exact g_block (V c main_v22) (V c main_v12) (V c main_arg0) (V c main_arg2) (V c main_v23) (V c main_arg4) (V c main_arg5)
    (fun y => ((cfg0.win 0).blk t).view.emb y) (fun y => ((cfg0.win 2).blk t).view.emb y)
    (fun y => ((cfg0.win 1).blk t).view.emb y) (fun y => ((cfg0.win 8).blk t).view.emb y)
    (fun y => ((cfg0.win 3).blk t).view.emb y) (fun y => ((cfg0.win 5).blk t).view.emb y)
    (fun y => ((cfg0.win 4).blk t).view.emb y) (fun y => ((cfg0.win 6).blk t).view.emb y)
    (blockRow t.val ht)
    (fun p f => funext fun a => Fin.ext (by
      match a with
      | ⟨0, _⟩ => show win0_0.index t (0 : Fin 2) * 5000 + 1 * p.val = t.val * 5000 + p.val; omega
      | ⟨1, _⟩ => show win0_0.index t (1 : Fin 2) * 9 + 1 * f.val = f.val; omega))
    (fun p => funext fun a => Fin.ext (by
      match a with
      | ⟨0, _⟩ => show win0_1.index t (0 : Fin 2) * 5000 + 1 * p.val = t.val * 5000 + p.val; omega
      | ⟨1, _⟩ => show win0_1.index t (1 : Fin 2) * 1 + 1 * 0 = 0; omega))
    (fun p f => funext fun a => Fin.ext (by
      match a with
      | ⟨0, _⟩ => show win0_2.index t (0 : Fin 2) * 5000 + 1 * p.val = t.val * 5000 + p.val; omega
      | ⟨1, _⟩ => show win0_2.index t (1 : Fin 2) * 9 + 1 * f.val = f.val; omega))
    (fun p q => funext fun a => Fin.ext (by
      match a with
      | ⟨0, _⟩ => show win0_8.index t (0 : Fin 2) * 5000 + 1 * p.val = t.val * 5000 + p.val; omega
      | ⟨1, _⟩ => show win0_8.index t (1 : Fin 2) * 32 + 1 * q.val = q.val; omega))
    (fun y => funext fun a => Fin.ext (by
      match a with
      | ⟨0, _⟩ => show win0_3.index t (0 : Fin 2) * 9 + 1 * (y 0).val = (y 0).val; omega
      | ⟨1, _⟩ => show win0_3.index t (1 : Fin 2) * 64 + 1 * (y 1).val = (y 1).val; omega))
    (fun y => funext fun a => Fin.ext (by
      match a with
      | ⟨0, _⟩ => show win0_4.index t (0 : Fin 2) * 1 + 1 * (y 0).val = (y 0).val; omega
      | ⟨1, _⟩ => show win0_4.index t (1 : Fin 2) * 64 + 1 * (y 1).val = (y 1).val; omega))
    (fun y => funext fun a => Fin.ext (by
      match a with
      | ⟨0, _⟩ => show win0_5.index t (0 : Fin 2) * 9 + 1 * (y 0).val = (y 0).val; omega
      | ⟨1, _⟩ => show win0_5.index t (1 : Fin 2) * 64 + 1 * (y 1).val = (y 1).val; omega))
    (fun y => funext fun a => Fin.ext (by
      match a with
      | ⟨0, _⟩ => show win0_6.index t (0 : Fin 2) * 64 + 1 * (y 0).val = (y 0).val; omega
      | ⟨1, _⟩ => show win0_6.index t (1 : Fin 2) * 32 + 1 * (y 1).val = (y 1).val; omega))

/-- An index of window 8's array is in point `t`'s block iff each coordinate is in the block's range. -/
theorem mem_blk0_8 (t : Fin cfg0.N) (i : S100000x32.Idx) :
    i ∈ ((cfg0.win 8).blk t).view.set ↔ ∀ a : Fin 2, win0_8.index t a * S5000x32.size a ≤ (i a).val
      ∧ (i a).val < win0_8.index t a * S5000x32.size a + S5000x32.size a := by
  show i ∈ ((View.whole main_v24_0).slice (win0_8.rect t)).set ↔ _
  rw [View.set_slice_whole, Rect.mem_set_unit]
  exact Iff.rfl

/-- Every index of window 8's array lies in the block of the point its row divided by 5000 names. -/
theorem cover0_8 (i : S100000x32.Idx) :
    ∃ t : Fin cfg0.N, (cfg0.win 8).flush t = true ∧ i ∈ ((cfg0.win 8).blk t).view.set := by
  have hi0 : (i 0).val < 100000 := (i 0).isLt
  have hi1 : (i 1).val < 32 := (i 1).isLt
  obtain ⟨t, ht⟩ : ∃ t : Fin cfg0.N, t.val = (i 0).val / 5000 :=
    ⟨⟨(i 0).val / 5000, lt_of_lt_of_eq (by omega) N_0.symm⟩, rfl⟩
  obtain ⟨a0, a1, b0, b1, c0, c1, d0, d1, f0, f1, g0, g1, k0, k1, l0, l1, m0, m1, n0, n1⟩ := idx_facts0 t
  refine ⟨t, flush0_8 t, ?_⟩
  rw [mem_blk0_8]
  intro a
  match a with
  | ⟨0, _⟩ =>
    show win0_8.index t (0 : Fin 2) * 5000 ≤ (i 0).val ∧ (i 0).val < win0_8.index t (0 : Fin 2) * 5000 + 5000
    omega
  | ⟨1, _⟩ =>
    show win0_8.index t (1 : Fin 2) * 32 ≤ (i 1).val ∧ (i 1).val < win0_8.index t (1 : Fin 2) * 32 + 32
    omega

/-- THE FIRST CALL'S OUTPUT ARRAY of window 8 after its run. -/
theorem region0_8 (c : Dev nD) :
    (dat0 (F := Ideal) V c).arrAt 8 cfg0.N
      = projArr (hidArr (V c main_v22) (V c main_v12) (V c main_arg0) (V c main_arg2) (V c main_v23) (V c main_arg4))
          (V c main_arg5) :=
  (dat0 V c).arrAt_eq_of_cover 8 _ (fun t _ => flushed0_8 V c t) cover0_8

/-- What point `t` of the first call writes back to window 9 is block `t` of the hidden rows through its matrix. -/
theorem flushed0_9 (c : Dev nD) (t : Fin cfg0.N) :
    (dat0 (F := Ideal) V c).flushed 9 t = ((cfg0.win 9).blk t).view.read (Elt Ideal)
      (projArr (hidArr (V c main_v22) (V c main_v12) (V c main_arg0) (V c main_arg2) (V c main_v23) (V c main_arg4))
        (V c main_arg7)) := by
  show (cfg0.win 9).cut (grid0.coords t) ((dat0 V c).after 9 t) = _
  rw [after0_9]
  unfold out0_9
  rw [View.canon_unit_zero hz]
  simp only [View.ld_unit_zero (S := S5000x9) hz, View.ld_unit_zero (S := S5000x1) hz, View.ld_unit_zero (S := S9x64) hz,
    View.ld_unit_zero (S := S1x64) hz, View.ld_unit_zero (S := S64x32) hz]
  have ht : t.val < 20 := lt_of_lt_of_eq t.isLt N_0
  obtain ⟨a0, a1, b0, b1, c0, c1, d0, d1, f0, f1, g0, g1, k0, k1, l0, l1, m0, m1, n0, n1⟩ := idx_facts0 t
  exact self_block (V c main_v22) (V c main_v12) (V c main_arg0) (V c main_arg2) (V c main_v23) (V c main_arg4) (V c main_arg7)
    (fun y => ((cfg0.win 0).blk t).view.emb y) (fun y => ((cfg0.win 2).blk t).view.emb y)
    (fun y => ((cfg0.win 1).blk t).view.emb y) (fun y => ((cfg0.win 9).blk t).view.emb y)
    (fun y => ((cfg0.win 3).blk t).view.emb y) (fun y => ((cfg0.win 5).blk t).view.emb y)
    (fun y => ((cfg0.win 4).blk t).view.emb y) (fun y => ((cfg0.win 7).blk t).view.emb y)
    (blockRow t.val ht)
    (fun p f => funext fun a => Fin.ext (by
      match a with
      | ⟨0, _⟩ => show win0_0.index t (0 : Fin 2) * 5000 + 1 * p.val = t.val * 5000 + p.val; omega
      | ⟨1, _⟩ => show win0_0.index t (1 : Fin 2) * 9 + 1 * f.val = f.val; omega))
    (fun p => funext fun a => Fin.ext (by
      match a with
      | ⟨0, _⟩ => show win0_1.index t (0 : Fin 2) * 5000 + 1 * p.val = t.val * 5000 + p.val; omega
      | ⟨1, _⟩ => show win0_1.index t (1 : Fin 2) * 1 + 1 * 0 = 0; omega))
    (fun p f => funext fun a => Fin.ext (by
      match a with
      | ⟨0, _⟩ => show win0_2.index t (0 : Fin 2) * 5000 + 1 * p.val = t.val * 5000 + p.val; omega
      | ⟨1, _⟩ => show win0_2.index t (1 : Fin 2) * 9 + 1 * f.val = f.val; omega))
    (fun p q => funext fun a => Fin.ext (by
      match a with
      | ⟨0, _⟩ => show win0_9.index t (0 : Fin 2) * 5000 + 1 * p.val = t.val * 5000 + p.val; omega
      | ⟨1, _⟩ => show win0_9.index t (1 : Fin 2) * 32 + 1 * q.val = q.val; omega))
    (fun y => funext fun a => Fin.ext (by
      match a with
      | ⟨0, _⟩ => show win0_3.index t (0 : Fin 2) * 9 + 1 * (y 0).val = (y 0).val; omega
      | ⟨1, _⟩ => show win0_3.index t (1 : Fin 2) * 64 + 1 * (y 1).val = (y 1).val; omega))
    (fun y => funext fun a => Fin.ext (by
      match a with
      | ⟨0, _⟩ => show win0_4.index t (0 : Fin 2) * 1 + 1 * (y 0).val = (y 0).val; omega
      | ⟨1, _⟩ => show win0_4.index t (1 : Fin 2) * 64 + 1 * (y 1).val = (y 1).val; omega))
    (fun y => funext fun a => Fin.ext (by
      match a with
      | ⟨0, _⟩ => show win0_5.index t (0 : Fin 2) * 9 + 1 * (y 0).val = (y 0).val; omega
      | ⟨1, _⟩ => show win0_5.index t (1 : Fin 2) * 64 + 1 * (y 1).val = (y 1).val; omega))
    (fun y => funext fun a => Fin.ext (by
      match a with
      | ⟨0, _⟩ => show win0_7.index t (0 : Fin 2) * 64 + 1 * (y 0).val = (y 0).val; omega
      | ⟨1, _⟩ => show win0_7.index t (1 : Fin 2) * 32 + 1 * (y 1).val = (y 1).val; omega))

/-- An index of window 9's array is in point `t`'s block iff each coordinate is in the block's range. -/
theorem mem_blk0_9 (t : Fin cfg0.N) (i : S100000x32.Idx) :
    i ∈ ((cfg0.win 9).blk t).view.set ↔ ∀ a : Fin 2, win0_9.index t a * S5000x32.size a ≤ (i a).val
      ∧ (i a).val < win0_9.index t a * S5000x32.size a + S5000x32.size a := by
  show i ∈ ((View.whole main_v24_1).slice (win0_9.rect t)).set ↔ _
  rw [View.set_slice_whole, Rect.mem_set_unit]
  exact Iff.rfl

/-- Every index of window 9's array lies in the block of the point its row divided by 5000 names. -/
theorem cover0_9 (i : S100000x32.Idx) :
    ∃ t : Fin cfg0.N, (cfg0.win 9).flush t = true ∧ i ∈ ((cfg0.win 9).blk t).view.set := by
  have hi0 : (i 0).val < 100000 := (i 0).isLt
  have hi1 : (i 1).val < 32 := (i 1).isLt
  obtain ⟨t, ht⟩ : ∃ t : Fin cfg0.N, t.val = (i 0).val / 5000 :=
    ⟨⟨(i 0).val / 5000, lt_of_lt_of_eq (by omega) N_0.symm⟩, rfl⟩
  obtain ⟨a0, a1, b0, b1, c0, c1, d0, d1, f0, f1, g0, g1, k0, k1, l0, l1, m0, m1, n0, n1⟩ := idx_facts0 t
  refine ⟨t, flush0_9 t, ?_⟩
  rw [mem_blk0_9]
  intro a
  match a with
  | ⟨0, _⟩ =>
    show win0_9.index t (0 : Fin 2) * 5000 ≤ (i 0).val ∧ (i 0).val < win0_9.index t (0 : Fin 2) * 5000 + 5000
    omega
  | ⟨1, _⟩ =>
    show win0_9.index t (1 : Fin 2) * 32 ≤ (i 1).val ∧ (i 1).val < win0_9.index t (1 : Fin 2) * 32 + 32
    omega

/-- THE FIRST CALL'S OUTPUT ARRAY of window 9 after its run. -/
theorem region0_9 (c : Dev nD) :
    (dat0 (F := Ideal) V c).arrAt 9 cfg0.N
      = projArr (hidArr (V c main_v22) (V c main_v12) (V c main_arg0) (V c main_arg2) (V c main_v23) (V c main_arg4))
          (V c main_arg7) :=
  (dat0 V c).arrAt_eq_of_cover 9 _ (fun t _ => flushed0_9 V c t) cover0_9

end

end Cert.KernelIdeal.Sage

end
-- ==== Proof.KernelHost.lean ====
/-
  The host operations around the two pallas_calls, read as functions of the launch arrays.

  Before the first call the host slices the edge array into its source and target rows, wraps negative sources once,
  computes the in-degree as a segment sum of ones, its clamped reciprocal as a column, and the neighbour sum of the
  inputs. Between the calls it gathers and segment-sums the first call's first output by the same edges. Every buffer
  a call reads is therefore one of: an argument as launched, a bias laid out as a row, the reciprocal-degree column, or a
  segment sum of gathered rows.
-/
import proofs.«154276_j32787780338275_2_alg».proof.Proof.Gen.KernelIdeal.Frame
import Idealize.ShloMosaic.Lib.StableHlo.Run
import Idealize.ShloMosaic.PureOps.Ideal
import Idealize.ShloMosaic.PureOps.Ideal.Laws

set_option maxRecDepth 16384

noncomputable section

namespace Cert.KernelIdeal.Sage

open Cert.KernelIdeal Cert.KernelIdeal.Gen Idealize.ShloMosaic Idealize.ShloMosaic.TcCoe Idealize.ShloMosaic.StableHlo
open Idealize.SL Idealize.SL.Sem

/-! ## The host's terms -/

/-- Row `k` of the edge array as a vector of edges. -/
def edgeRow0 (x1 : IVec S2x1600000 32) : IVec S1600000 32 :=
  shapeCast _ (extractStridedSlice S1x1600000 ![0, 0] x1 slices_S2x1600000_S1x1600000_0_0) shapeCasts_S1x1600000_S1600000
def edgeRow1 (x1 : IVec S2x1600000 32) : IVec S1600000 32 :=
  shapeCast _ (extractStridedSlice S1x1600000 ![1, 0] x1 slices_S2x1600000_S1x1600000_1_0) shapeCasts_S1x1600000_S1600000

/-- The source column: negative sources wrapped once by the node count. -/
def srcColOf (s1 : IVec S1600000 32) : IVec S1600000x1 32 :=
  broadcastInDim S1600000x1 ![0] bcast_S1600000_S1600000x1_0
    (select (cmpi .slt s1 (broadcastInDim S1600000 ![] bcast_S_S1600000 (constantI S_ 32 0#32)))
      (addi s1 (broadcastInDim S1600000 ![] bcast_S_S1600000 (constantI S_ 32 100000#32))) s1)

/-- The target column. -/
def dstColOf (d1 : IVec S1600000 32) : IVec S1600000x1 32 :=
  broadcastInDim S1600000x1 ![0] bcast_S1600000_S1600000x1_0 d1

/-- The in-degree: a segment sum of ones by the targets. -/
def degOf (d1 : IVec S1600000 32) : FVec Ideal S100000 .f32 :=
  Host.scatterAdd scatter_S100000_S1600000x1_S1600000_n_0_0_1
    (broadcastInDim S100000 ![] bcast_S_S100000 (constant (F := Ideal) S_ .f32 0x00000000#32)) (dstColOf d1)
    (broadcastInDim S1600000 ![] bcast_S_S1600000 (constant (F := Ideal) S_ .f32 0x3F800000#32))

/-- The reciprocal of the clamped in-degree, as a column. -/
def invOf (d1 : IVec S1600000 32) : FVec Ideal S100000x1 .f32 :=
  shapeCast _ (Host.divf (broadcastInDim S100000 ![] bcast_S_S100000 (constant (F := Ideal) S_ .f32 0x3F800000#32))
    (maximumf (degOf d1) (broadcastInDim S100000 ![] bcast_S_S100000 (constant (F := Ideal) S_ .f32 0x3F800000#32))))
    shapeCasts_S100000_S100000x1

/-- The neighbour sum of the input rows. -/
def segsum9 (x0 : FVec Ideal S100000x9 .f32) (s1 d1 : IVec S1600000 32) : FVec Ideal S100000x9 .f32 :=
  Host.scatterAdd scatter_S100000x9_S1600000x1_S1600000x9_1_0_0_1
    (broadcastInDim S100000x9 ![] bcast_S_S100000x9 (constant (F := Ideal) S_ .f32 0x00000000#32)) (dstColOf d1)
    (Host.gather gather_S100000x9_S1600000x1_S1600000x9_1_0_n_n_0_1_19 x0 (srcColOf s1))

/-- The neighbour sum of 32-wide rows. -/
def segsum32 (g : FVec Ideal S100000x32 .f32) (s1 d1 : IVec S1600000 32) : FVec Ideal S100000x32 .f32 :=
  Host.scatterAdd scatter_S100000x32_S1600000x1_S1600000x32_1_0_0_1
    (broadcastInDim S100000x32 ![] bcast_S_S100000x32 (constant (F := Ideal) S_ .f32 0x00000000#32)) (dstColOf d1)
    (Host.gather gather_S100000x32_S1600000x1_S1600000x32_1_0_n_n_0_1_132 g (srcColOf s1))

variable (m : (ℓ : Loc nD τ sig) → Buf (Elt Ideal) ℓ) (ρ : Dev nD → PrngReg)

/-! ## Before the first call -/

theorem W1_v1 (c : Dev nD) : W1 m ρ c (Proc.devRef .tc main_v1) = edgeRow0 (m ((c : Thread nD τ).loc main_arg1)) := by
  show StableHlo.after hostOps0 (W0 m ρ c) (Proc.devRef .tc main_v1) = _
  dsimp only [hostOps0]
  after_results_simp
  rfl

theorem W1_v3 (c : Dev nD) : W1 m ρ c (Proc.devRef .tc main_v3) = edgeRow1 (m ((c : Thread nD τ).loc main_arg1)) := by
  show StableHlo.after hostOps0 (W0 m ρ c) (Proc.devRef .tc main_v3) = _
  dsimp only [hostOps0]
  after_results_simp
  rfl

theorem W1_arg6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results_simp

theorem V1_v22 (c : Dev nD) : V1 m ρ c main_v22 = segsum9 (m ((c : Thread nD τ).loc main_arg0)) (edgeRow0 (m ((c : Thread nD τ).loc main_arg1))) (edgeRow1 (m ((c : Thread nD τ).loc main_arg1))) := by
  show StableHlo.after hostOps0 (W0 m ρ c) (Proc.devRef .tc main_v22) = _
  dsimp only [hostOps0]
  after_results_simp
  rfl

theorem V1_v12 (c : Dev nD) : V1 m ρ c main_v12 = invOf (edgeRow1 (m ((c : Thread nD τ).loc main_arg1))) := by
  show StableHlo.after hostOps0 (W0 m ρ c) (Proc.devRef .tc main_v12) = _
  dsimp only [hostOps0]
  after_results_simp
  rfl

theorem V1_v23 (c : Dev nD) : V1 m ρ c main_v23 = shapeCast _ (m ((c : Thread nD τ).loc main_arg3)) shapeCasts_S64_S1x64 := by
  show StableHlo.after hostOps0 (W0 m ρ c) (Proc.devRef .tc main_v23) = _
  dsimp only [hostOps0]
  after_results_simp
  rfl

theorem V1_arg0 (c : Dev nD) : V1 m ρ c main_arg0 = m ((c : Thread nD τ).loc main_arg0) := by
  show StableHlo.after hostOps0 (W0 m ρ c) (Proc.devRef .tc main_arg0) = _
  dsimp only [hostOps0]
  after_results_simp

theorem V1_arg2 (c : Dev nD) : V1 m ρ c main_arg2 = m ((c : Thread nD τ).loc main_arg2) := by
  show StableHlo.after hostOps0 (W0 m ρ c) (Proc.devRef .tc main_arg2) = _
  dsimp only [hostOps0]
  after_results_simp

theorem V1_arg4 (c : Dev nD) : V1 m ρ c main_arg4 = m ((c : Thread nD τ).loc main_arg4) := by
  show StableHlo.after hostOps0 (W0 m ρ c) (Proc.devRef .tc main_arg4) = _
  dsimp only [hostOps0]
  after_results_simp

theorem V1_arg5 (c : Dev nD) : V1 m ρ c main_arg5 = m ((c : Thread nD τ).loc main_arg5) := by
  show StableHlo.after hostOps0 (W0 m ρ c) (Proc.devRef .tc main_arg5) = _
  dsimp only [hostOps0]
  after_results_simp

theorem V1_arg7 (c : Dev nD) : V1 m ρ c main_arg7 = m ((c : Thread nD τ).loc main_arg7) := by
  show StableHlo.after hostOps0 (W0 m ρ c) (Proc.devRef .tc main_arg7) = _
  dsimp only [hostOps0]
  after_results_simp

/-! ## After the first call, before the second -/

theorem W2_v24_0 (c : Dev nD) : W2 m ρ c (Proc.devRef .tc main_v24_0) = (dat0 (V1 m ρ) c).arrAt 8 cfg0.N := W2_arr m ρ c 8
theorem W2_v24_1 (c : Dev nD) : W2 m ρ c (Proc.devRef .tc main_v24_1) = (dat0 (V1 m ρ) c).arrAt 9 cfg0.N := W2_arr m ρ c 9
theorem W2_v12 (c : Dev nD) : W2 m ρ c (Proc.devRef .tc main_v12) = V1 m ρ c main_v12 :=
  (W2_arr m ρ c 1).trans (((dat0 (V1 m ρ) c).arrAt_in 1 rfl _).trans (A_eq0 (V1 m ρ) c 1))
theorem W2_v1 (c : Dev nD) : W2 m ρ c (Proc.devRef .tc main_v1) = W1 m ρ c (Proc.devRef .tc main_v1) :=
  W2_of_ne m ρ c main_v1 (by decide)
theorem W2_v3 (c : Dev nD) : W2 m ρ c (Proc.devRef .tc main_v3) = W1 m ρ c (Proc.devRef .tc main_v3) :=
  W2_of_ne m ρ c main_v3 (by decide)
theorem W2_arg6 (c : Dev nD) : W2 m ρ c (Proc.devRef .tc main_arg6) = W1 m ρ c (Proc.devRef .tc main_arg6) :=
  W2_of_ne m ρ c main_arg6 (by decide)

theorem V3_v34 (c : Dev nD) : V3 m ρ c main_v34
    = segsum32 (W2 m ρ c (Proc.devRef .tc main_v24_0)) (W2 m ρ c (Proc.devRef .tc main_v1)) (W2 m ρ c (Proc.devRef .tc main_v3)) := by
  show StableHlo.after hostOps1 (W2 m ρ c) (Proc.devRef .tc main_v34) = _
  dsimp only [hostOps1]
  after_results_simp
  rfl

theorem V3_v35 (c : Dev nD) : V3 m ρ c main_v35 = shapeCast _ (W2 m ρ c (Proc.devRef .tc main_arg6)) shapeCasts_S32_S1x32 := by
  show StableHlo.after hostOps1 (W2 m ρ c) (Proc.devRef .tc main_v35) = _
  dsimp only [hostOps1]
  after_results_simp
  rfl

theorem V3_v12 (c : Dev nD) : V3 m ρ c main_v12 = W2 m ρ c (Proc.devRef .tc main_v12) := by
  show StableHlo.after hostOps1 (W2 m ρ c) (Proc.devRef .tc main_v12) = _
  dsimp only [hostOps1]
  after_results_simp

theorem V3_v24_1 (c : Dev nD) : V3 m ρ c main_v24_1 = W2 m ρ c (Proc.devRef .tc main_v24_1) := by
  show StableHlo.after hostOps1 (W2 m ρ c) (Proc.devRef .tc main_v24_1) = _
  dsimp only [hostOps1]
  after_results_simp

end Cert.KernelIdeal.Sage

end
-- ==== Proof.LibColumnCast.lean ====
/-
  A vector laid out as a column, read at an entry.

  A vector of length n cast into the [n, 1] column reads, at (p, z), the vector at p: the two indices have the same
  row-major position, since the unit axis contributes nothing.
-/
import Idealize.ShloMosaic.Lib.ValueIdx
import Idealize.ShloMosaic.Lib.Pipeline.Value

noncomputable section

namespace LibColumnCast

open Idealize.ShloMosaic Idealize.ShloMosaic.ValueIdx

/-- A vector of length n cast into the [n, 1] column reads, at (p, z), the vector at p. -/
theorem shapeCast_col_apply {α : Type} {n : ℕ} (x : (⟨1, ![n]⟩ : Shape).Idx → α)
    (h : (⟨1, ![n]⟩ : Shape).ShapeCasts ⟨2, ![n, 1]⟩) (p : Fin n) (z : Fin 1) :
    shapeCast ⟨2, ![n, 1]⟩ x h (ix2 p z) = x (ix1 p) := by
  refine shapeCast_apply x h _ _ ?_
  rw [Shape.rowMajor_val_one, Shape.rowMajor_val_two]
  show p.val = p.val * 1 + z.val
  have := z.isLt
  omega

end LibColumnCast

end
-- ==== Proof.KernelValue.lean ====
/-
  The idealized kernel's result, entry by entry, is the specification's second form.

  The second call's array is its formula over what the host and the first call left: the neighbour sum of the first
  call's first output, the reciprocal-degree column, the first call's second output and the bias row. The first
  call's outputs are the hidden rows through W2l and through W2r, the hidden rows being its formula over the neighbour
  sum of the inputs, the same column, the inputs, the weights and the bias row. Read at an entry: a segment sum of
  gathered rows is a neighbour sum; the column at row i is 1 / max(deg i, 1); a bias laid out as a row reads the bias.
-/
import proofs.«154276_j32787780338275_2_alg».proof.Proof.KernelRegions
import proofs.«154276_j32787780338275_2_alg».proof.Proof.KernelHost
import proofs.«154276_j32787780338275_2_alg».proof.Proof.SageSpec
import proofs.«154276_j32787780338275_2_alg».proof.Proof.LibSegmentSum
import proofs.«154276_j32787780338275_2_alg».proof.Proof.LibRowOps
import proofs.«154276_j32787780338275_2_alg».proof.Proof.LibMeanForms
import proofs.«154276_j32787780338275_2_alg».proof.Proof.LibColRow
import proofs.«154276_j32787780338275_2_alg».proof.Proof.LibColumnCast

set_option maxRecDepth 16384

noncomputable section

open scoped BigOperators

namespace Cert.KernelIdeal.Sage

open Cert.KernelIdeal Cert.KernelIdeal.Gen Idealize.ShloMosaic Idealize.ShloMosaic.TcCoe Idealize.ShloMosaic.ValueIdx
open Idealize.SL Idealize.SL.Sem LibSegmentSum SageSpec

/-! ## The printed records are the row gather and the row segment sum -/

theorem scat9_eq : scatter_S100000x9_S1600000x1_S1600000x9_1_0_0_1
    = LibRowScatter.addRowsDims 100000 9 1600000 Facts₀.scatter_S100000x9_S1600000x1_S1600000x9_1_0_0_1_wf := rfl
theorem gath9_eq : gather_S100000x9_S1600000x1_S1600000x9_1_0_n_n_0_1_19
    = LibRowGather.rowDims 100000 9 1600000 Facts₀.gather_S100000x9_S1600000x1_S1600000x9_1_0_n_n_0_1_19_wf := rfl
theorem scat32_eq : scatter_S100000x32_S1600000x1_S1600000x32_1_0_0_1
    = LibRowScatter.addRowsDims 100000 32 1600000 Facts₀.scatter_S100000x32_S1600000x1_S1600000x32_1_0_0_1_wf := rfl
theorem gath32_eq : gather_S100000x32_S1600000x1_S1600000x32_1_0_n_n_0_1_132
    = LibRowGather.rowDims 100000 32 1600000 Facts₀.gather_S100000x32_S1600000x1_S1600000x32_1_0_n_n_0_1_132_wf := rfl

/-! ## The host's terms at an entry -/

theorem segsum9_apply (x0 : FVec Ideal S100000x9 .f32) (s1 d1 : IVec S1600000 32) (i : Fin 100000) (f : Fin 9) :
    segsum9 x0 s1 d1 (ix2 i f)
      = nsum (tgtOf (dstColOf d1)) (rowOf 100000 (by decide) (srcColOf s1)) (fun r f => x0 (ix2 r f)) i f := by
  unfold segsum9
  rw [scat9_eq, gath9_eq]
  exact segsum_gather_apply (by decide) _ _ _ x0 (srcColOf s1) (dstColOf d1) i f

theorem segsum32_apply (g : FVec Ideal S100000x32 .f32) (s1 d1 : IVec S1600000 32) (i : Fin 100000) (q : Fin 32) :
    segsum32 g s1 d1 (ix2 i q)
      = nsum (tgtOf (dstColOf d1)) (rowOf 100000 (by decide) (srcColOf s1)) (fun r f => g (ix2 r f)) i q := by
  unfold segsum32
  rw [scat32_eq, gath32_eq]
  exact segsum_gather_apply (by decide) _ _ _ g (srcColOf s1) (dstColOf d1) i q

/-- The reciprocal of a clamped vector, laid out as a column, at row `i`: one over the clamped entry. -/
theorem inv_col_apply (g : FVec Ideal S100000 .f32) (i : Fin 100000) :
    shapeCast S100000x1 (Host.divf (broadcastInDim S100000 ![] bcast_S_S100000 (constant (F := Ideal) S_ .f32 0x3F800000#32))
      (maximumf g (broadcastInDim S100000 ![] bcast_S_S100000 (constant (F := Ideal) S_ .f32 0x3F800000#32))))
      shapeCasts_S100000_S100000x1 (ix2 i (0 : Fin 1)) = Ideal.div 1 (clampDeg (g (ix1 i))) := by
  rw [LibColumnCast.shapeCast_col_apply]
  show Ideal.div (broadcastInDim S100000 ![] bcast_S_S100000 (constant (F := Ideal) S_ .f32 0x3F800000#32) (ix1 i))
    (max (g (ix1 i)) (broadcastInDim S100000 ![] bcast_S_S100000 (constant (F := Ideal) S_ .f32 0x3F800000#32) (ix1 i))) = _
  rw [LibColRow.splat_apply, constant_apply, LibMeanForms.one_f32]
  rfl

/-- The reciprocal-degree column at row `i`: one over the clamped degree. -/
theorem invOf_apply (d1 : IVec S1600000 32) (i : Fin 100000) :
    invOf d1 (ix2 i (0 : Fin 1)) = Ideal.div 1 (clampDeg (degOf d1 (ix1 i))) :=
  inv_col_apply (degOf d1) i

/-! ## The two calls' formulas are the specification's -/

/-- The first call's hidden rows are the specification's hidden layer in its second form. -/
theorem hidArr_eq (x0 : FVec Ideal S100000x9 .f32) (x2 : FVec Ideal S9x64 .f32) (x3 : FVec Ideal S64 .f32)
    (x4 : FVec Ideal S9x64 .f32) (s1 d1 : IVec S1600000 32) :
    hidArr (segsum9 x0 s1 d1) (invOf d1) x0 x2 (shapeCast _ x3 shapeCasts_S64_S1x64) x4
      = SageSpec.hid' (tgtOf (dstColOf d1)) (rowOf 100000 (by decide) (srcColOf s1)) (fun i => clampDeg (degOf d1 (ix1 i)))
          (fun i f => x0 (ix2 i f)) (fun f c => x2 (ix2 f c)) (fun c => x3 (ix1 c)) (fun f c => x4 (ix2 f c)) := by
  funext i c
  unfold hidArr SageSpec.hid'
  simp only [segsum9_apply, invOf_apply, LibRowOps.shapeCast_row_apply]

/-- THE SECOND CALL'S FORMULA over the host's and the first call's arrays, at an entry, is the specification's output
    layer in its second form. -/
theorem combine_entry (x0 : FVec Ideal S100000x9 .f32) (x2 : FVec Ideal S9x64 .f32) (x3 : FVec Ideal S64 .f32)
    (x4 : FVec Ideal S9x64 .f32) (x5 : FVec Ideal S64x32 .f32) (x6 : FVec Ideal S32 .f32) (x7 : FVec Ideal S64x32 .f32)
    (s1 d1 : IVec S1600000 32) (i : Fin 100000) (q : Fin 32) :
    combineArr
        (segsum32 (projArr (hidArr (segsum9 x0 s1 d1) (invOf d1) x0 x2 (shapeCast _ x3 shapeCasts_S64_S1x64) x4) x5) s1 d1)
        (invOf d1)
        (projArr (hidArr (segsum9 x0 s1 d1) (invOf d1) x0 x2 (shapeCast _ x3 shapeCasts_S64_S1x64) x4) x7)
        (shapeCast _ x6 shapeCasts_S32_S1x32) (ix2 i q)
      = SageSpec.out' (tgtOf (dstColOf d1)) (rowOf 100000 (by decide) (srcColOf s1)) (fun i => clampDeg (degOf d1 (ix1 i)))
          (SageSpec.hid' (tgtOf (dstColOf d1)) (rowOf 100000 (by decide) (srcColOf s1)) (fun i => clampDeg (degOf d1 (ix1 i)))
            (fun i f => x0 (ix2 i f)) (fun f c => x2 (ix2 f c)) (fun c => x3 (ix1 c)) (fun f c => x4 (ix2 f c)))
          (fun c o => x5 (ix2 c o)) (fun o => x6 (ix1 o)) (fun c o => x7 (ix2 c o)) i q := by
  rw [hidArr_eq]
  unfold combineArr
  show (segsum32 _ s1 d1 (ix2 i q) * invOf d1 (ix2 i (0 : Fin 1)) + shapeCast _ x6 shapeCasts_S32_S1x32 (ix2 (0 : Fin 1) q))
    + projArr _ x7 (ix2 i q) = _
  rw [segsum32_apply, invOf_apply, LibRowOps.shapeCast_row_apply]
  rfl

variable (m : (ℓ : Loc nD τ sig) → Buf (Elt Ideal) ℓ) (ρ : Dev nD → PrngReg)

/-! ## The kernel's result -/

/-- The contents the second pallas_call leaves in the result buffer, as one formula over the launch arrays. -/
theorem result_arrays (c : Dev nD) :
    W4 m ρ c (Proc.devRef .tc main_v36)
      = combineArr
          (segsum32 (projArr (hidArr (segsum9 (m ((c : Thread nD τ).loc main_arg0)) (edgeRow0 (m ((c : Thread nD τ).loc main_arg1)))
              (edgeRow1 (m ((c : Thread nD τ).loc main_arg1)))) (invOf (edgeRow1 (m ((c : Thread nD τ).loc main_arg1))))
              (m ((c : Thread nD τ).loc main_arg0)) (m ((c : Thread nD τ).loc main_arg2))
              (shapeCast _ (m ((c : Thread nD τ).loc main_arg3)) shapeCasts_S64_S1x64) (m ((c : Thread nD τ).loc main_arg4)))
              (m ((c : Thread nD τ).loc main_arg5)))
            (edgeRow0 (m ((c : Thread nD τ).loc main_arg1))) (edgeRow1 (m ((c : Thread nD τ).loc main_arg1))))
          (invOf (edgeRow1 (m ((c : Thread nD τ).loc main_arg1))))
          (projArr (hidArr (segsum9 (m ((c : Thread nD τ).loc main_arg0)) (edgeRow0 (m ((c : Thread nD τ).loc main_arg1)))
              (edgeRow1 (m ((c : Thread nD τ).loc main_arg1)))) (invOf (edgeRow1 (m ((c : Thread nD τ).loc main_arg1))))
              (m ((c : Thread nD τ).loc main_arg0)) (m ((c : Thread nD τ).loc main_arg2))
              (shapeCast _ (m ((c : Thread nD τ).loc main_arg3)) shapeCasts_S64_S1x64) (m ((c : Thread nD τ).loc main_arg4)))
            (m ((c : Thread nD τ).loc main_arg7)))
          (shapeCast _ (m ((c : Thread nD τ).loc main_arg6)) shapeCasts_S32_S1x32) := by
  refine (W4_arr m ρ c 4).trans ?_
  rw [region1_z (V3 m ρ) c, V3_v34, V3_v12, V3_v24_1, V3_v35, W2_v24_0, W2_v24_1, W2_v12, W2_v1, W2_v3, W2_arg6,
    W1_v1, W1_v3, W1_arg6, region0_8 (V1 m ρ) c, region0_9 (V1 m ρ) c, V1_v22, V1_v12, V1_v23, V1_arg0, V1_arg2,
    V1_arg4, V1_arg5, V1_arg7]

/-- THE KERNEL'S RESULT, entry by entry: the specification's output layer in its second form. -/
theorem kernel_value (c : Dev nD) :
    W4 m ρ c (Proc.devRef .tc main_v36) = fun j =>
      SageSpec.out' (tgtOf (dstColOf (edgeRow1 (m ((c : Thread nD τ).loc main_arg1)))))
        (rowOf 100000 (by decide) (srcColOf (edgeRow0 (m ((c : Thread nD τ).loc main_arg1)))))
        (fun i => clampDeg (degOf (edgeRow1 (m ((c : Thread nD τ).loc main_arg1))) (ix1 i)))
        (SageSpec.hid' (tgtOf (dstColOf (edgeRow1 (m ((c : Thread nD τ).loc main_arg1)))))
          (rowOf 100000 (by decide) (srcColOf (edgeRow0 (m ((c : Thread nD τ).loc main_arg1)))))
          (fun i => clampDeg (degOf (edgeRow1 (m ((c : Thread nD τ).loc main_arg1))) (ix1 i)))
          (fun i f => m ((c : Thread nD τ).loc main_arg0) (ix2 i f)) (fun f c' => m ((c : Thread nD τ).loc main_arg2) (ix2 f c'))
          (fun c' => m ((c : Thread nD τ).loc main_arg3) (ix1 c')) (fun f c' => m ((c : Thread nD τ).loc main_arg4) (ix2 f c')))
        (fun c' o => m ((c : Thread nD τ).loc main_arg5) (ix2 c' o)) (fun o => m ((c : Thread nD τ).loc main_arg6) (ix1 o))
        (fun c' o => m ((c : Thread nD τ).loc main_arg7) (ix2 c' o)) (j 0) (j 1) := by
  rw [result_arrays]
  funext j
  obtain ⟨i, q, rfl⟩ : ∃ (i : Fin 100000) (q : Fin 32), j = ix2 i q := ⟨j 0, j 1, eq_ix2 j⟩
  exact combine_entry _ _ _ _ _ _ _ _ _ i q

end Cert.KernelIdeal.Sage

end
-- ==== Proof.lean ====
/-
  The certificate: a two-layer neighbourhood-mean graph convolution, computed by two pallas_calls among host gathers and
  segment sums, against its plain reference.

  Both programs read the same source rows, targets and clamped in-degrees off the edge array. The reference takes the mean
  of the neighbours' hidden rows and projects it by W2l; the kernel projects every hidden row by W2l first (inside the
  first call), sums the projected rows over the neighbours on the host, and scales by the reciprocal clamped degree in
  the second call. With every float input finite the hidden rows and W2l are real, both sides are finite sums of reals,
  and the two orders agree (SageSpec). The hidden layers themselves agree with no finiteness. The frames of the two
  kernel programs are the generated ones; the reference's is its generated run with the result dropped; no rewrite was
  applied by the idealization, so its conjunct is trivial.
-/
import proofs.«154276_j32787780338275_2_alg».proof.Defs
import proofs.«154276_j32787780338275_2_alg».proof.Proof.Gen.Kernel
import proofs.«154276_j32787780338275_2_alg».proof.Proof.Gen.Kernel.Skeleton
import proofs.«154276_j32787780338275_2_alg».proof.Proof.Gen.Kernel.Launch
import proofs.«154276_j32787780338275_2_alg».proof.Proof.Gen.Kernel.Points
import proofs.«154276_j32787780338275_2_alg».proof.Proof.Gen.Kernel.Frame
import proofs.«154276_j32787780338275_2_alg».proof.Proof.Gen.KernelIdeal
import proofs.«154276_j32787780338275_2_alg».proof.Proof.Gen.KernelIdeal.Skeleton
import proofs.«154276_j32787780338275_2_alg».proof.Proof.Gen.KernelIdeal.Launch
import proofs.«154276_j32787780338275_2_alg».proof.Proof.Gen.KernelIdeal.Points
import proofs.«154276_j32787780338275_2_alg».proof.Proof.Gen.KernelIdeal.Frame
import proofs.«154276_j32787780338275_2_alg».proof.Proof.Gen.ReferenceIdeal
import proofs.«154276_j32787780338275_2_alg».proof.Proof.Gen.ReferenceIdeal.Run
import proofs.«154276_j32787780338275_2_alg».proof.Proof.Gen.ReferenceIdeal.Read
import proofs.«154276_j32787780338275_2_alg».proof.Proof.Gen.Pre_finite_inputs
import proofs.«154276_j32787780338275_2_alg».proof.Proof.SageSpec
import proofs.«154276_j32787780338275_2_alg».proof.Proof.SageFinite
import proofs.«154276_j32787780338275_2_alg».proof.Proof.RefIsSpec
import proofs.«154276_j32787780338275_2_alg».proof.Proof.KernelRun
import proofs.«154276_j32787780338275_2_alg».proof.Proof.KernelValue
import Idealize.ShloMosaic.Adequacy
import Idealize.ShloMosaic.Init

noncomputable section

namespace Cert.Proof

open Idealize.ShloMosaic Idealize.SL.Sem Idealize.ShloMosaic.ValueIdx LibSegmentSum SageSpec RealEntries

/-! ## The two programs read the same edges -/

/-- The kernel's source column is the reference's. -/
theorem srcCol_eq (x1 : IVec Cert.KernelIdeal.S2x1600000 32) :
    Cert.KernelIdeal.Sage.srcColOf (Cert.KernelIdeal.Sage.edgeRow0 x1) = Cert.ReferenceIdeal.Sage.srcCol x1 := rfl

/-- The kernel's target column is the reference's. -/
theorem dstCol_eq (x1 : IVec Cert.KernelIdeal.S2x1600000 32) :
    Cert.KernelIdeal.Sage.dstColOf (Cert.KernelIdeal.Sage.edgeRow1 x1) = Cert.ReferenceIdeal.Sage.dstCol x1 := rfl

/-- The kernel's in-degree vector is the reference's. -/
theorem deg_eq (x1 : IVec Cert.KernelIdeal.S2x1600000 32) :
    Cert.KernelIdeal.Sage.degOf (Cert.KernelIdeal.Sage.edgeRow1 x1) = Cert.ReferenceIdeal.Sage.degVec x1 := rfl

/-! ## The specification's two forms agree on real inputs -/

theorem second_form_eq {N E A B C : ℕ} (tgt : Fin E → ℤ) (row : Fin E → Fin N) (g : Fin N → EReal)
    (x : Fin N → Fin A → EReal) (W1l : Fin A → Fin B → EReal) (b1 : Fin B → EReal) (W1r : Fin A → Fin B → EReal)
    (W2l : Fin B → Fin C → EReal) (b2 : Fin C → EReal) (W2r : Fin B → Fin C → EReal)
    (hx : ∀ i f, IsR (x i f)) (hl : ∀ f c, IsR (W1l f c)) (hb : ∀ c, IsR (b1 c)) (hr : ∀ f c, IsR (W1r f c))
    (hw : ∀ c o, IsR (W2l c o)) :
    SageSpec.out' tgt row (fun i => clampDeg (g i)) (SageSpec.hid' tgt row (fun i => clampDeg (g i)) x W1l b1 W1r) W2l b2 W2r
      = SageSpec.out tgt row (fun i => clampDeg (g i)) (SageSpec.hid tgt row (fun i => clampDeg (g i)) x W1l b1 W1r) W2l b2 W2r := by
  rw [hid'_eq_hid tgt row g x W1l b1 W1r]
  exact out'_eq_out tgt row _ _ W2l b2 W2r (fun i => one_le_clampDeg (g i))
    (isR_hid tgt row _ x W1l b1 W1r (fun i => one_le_clampDeg (g i)) hx hl hb hr) hw

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs run, and end with the same result array: the
    kernel's is the specification's second form, the reference's its first, of the same edges and the same real inputs. -/
theorem algebraic : Cert.algebraic_KernelIdeal_ReferenceIdeal := by
  intro m ρ m' ρ' hpre hagree
  refine ⟨fun c => Cert.KernelIdeal.Gen.W4 m ρ c (Proc.devRef .tc Cert.KernelIdeal.main_v36),
    Cert.KernelIdeal.Sage.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  obtain ⟨r0, r2, r3, r4, r5⟩ := SageFinite.real_inputs _ _ _ _ _ _ _ _ (hpre c)
  show Cert.ReferenceIdeal.Value.res_main_v58 m' c
    = Cert.KernelIdeal.Gen.W4 m ρ c (Proc.devRef .tc Cert.KernelIdeal.main_v36)
  rw [Cert.KernelIdeal.Sage.kernel_value m ρ c, srcCol_eq, dstCol_eq, deg_eq,
    Cert.ReferenceIdeal.Read.val_main_v58_eq, Cert.ReferenceIdeal.Sage.ref_value, h0, h1, h2, h3, h4, h5, h6, h7]
  funext j
  exact (congrFun (congrFun (second_form_eq _ _ _ _ _ _ _ _ _ _ (fun i f => r0 _) (fun f c => r2 _) (fun c => r3 _)
    (fun f c => r4 _) (fun c o => r5 _)) (j 0)) (j 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
